-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x4096 : Shape := ⟨3, ![8, 3, 4096]⟩
abbrev S8x4096x3 : Shape := ⟨3, ![8, 4096, 3]⟩
abbrev S_ : Shape := ⟨0, ![]⟩

class Facts : Prop where
  bcast_S_S8x3x4096 : S_.BroadcastsInDim S8x3x4096 (![] : Fin 0 → Fin S8x3x4096.rank)
  reducesTo_S8x3x4096_S_d0_1_2 : S8x3x4096.ReducesTo [0, 1, 2] S_
  h_S_ : 0 < S_.numel
  bcast_S_S8x4096x3 : S_.BroadcastsInDim S8x4096x3 (![] : Fin 0 → Fin S8x4096x3.rank)
  reducesTo_S8x4096x3_S_d0_1_2 : S8x4096x3.ReducesTo [0, 1, 2] S_

variable [Facts]

def fn {F : FTy → Type} [FloatOps F] (main_arg0 : FVec F S8x3x4096 .f32) (main_arg1 : FVec F S8x4096x3 .f32) : IVec S_ 1 :=
  let main_v0 : FVec F S8x3x4096 .f32 := Host.absf main_arg0
  let main_cst : FVec F S_ .f32 := constant S_ .f32 0x7F800000#32
  let main_v1 : FVec F S8x3x4096 .f32 := broadcastInDim S8x3x4096 ![] bcast_S_S8x3x4096 main_cst
  let main_v2 : IVec S8x3x4096 1 := cmpf .olt main_v0 main_v1
  let main_c : IVec S_ 1 := constantI S_ 1 1#1
  let main_v3 : IVec S_ 1 := (fun x v => Host.reduce IntOp.andi x v reducesTo_S8x3x4096_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x3x4096 : Shape := ⟨3, ![8, 3, 4096]⟩
abbrev S8x4096x3 : Shape := ⟨3, ![8, 4096, 3]⟩
abbrev S8x1x4096 : Shape := ⟨3, ![8, 1, 4096]⟩
abbrev S1x3x1024 : Shape := ⟨3, ![1, 3, 1024]⟩
abbrev S1x4096x3 : Shape := ⟨3, ![1, 4096, 3]⟩
abbrev S1x1x1024 : Shape := ⟨3, ![1, 1, 1024]⟩
abbrev S1x1x4096 : Shape := ⟨3, ![1, 1, 4096]⟩
abbrev S4096x8 : Shape := ⟨2, ![4096, 8]⟩
abbrev S4096x128 : Shape := ⟨2, ![4096, 128]⟩
abbrev S4096x3 : Shape := ⟨2, ![4096, 3]⟩
abbrev S4096 : Shape := ⟨1, ![4096]⟩
abbrev S4096x1 : Shape := ⟨2, ![4096, 1]⟩
abbrev S3x1024 : Shape := ⟨2, ![3, 1024]⟩
abbrev S1024 : Shape := ⟨1, ![1024]⟩
abbrev S1x1024 : Shape := ⟨2, ![1, 1024]⟩
abbrev S8x1024 : Shape := ⟨2, ![8, 1024]⟩
abbrev S4096x1024 : Shape := ⟨2, ![4096, 1024]⟩
abbrev S1x4096 : Shape := ⟨2, ![1, 4096]⟩
abbrev S8x4096 : Shape := ⟨2, ![8, 4096]⟩
abbrev S_ : Shape := ⟨0, ![]⟩
abbrev S8 : Shape := ⟨1, ![8]⟩

abbrev nBuf : Space → Nat
  | .hbm => 21
  | .vmem => 10
  | .smem => 0
  | _ => 0

abbrev bufTy : (tb : Table) → Fin (tcTables nBuf tb) → BufTy
  | .hbm, ⟨0, _⟩ => ⟨S8x3x4096, .f32⟩
  | .hbm, ⟨1, _⟩ => ⟨S8x4096x3, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x4096x3, .f32⟩
  | .local _ .vmem, ⟨3, _⟩ => ⟨S1x4096x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | .local _ .vmem, ⟨8, _⟩ => ⟨S4096x8, .f32⟩
  | .local _ .vmem, ⟨9, _⟩ => ⟨S4096x128, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_17 : BitVec 32 := 0#32
  let v42 : BitVec 1 := Scalar.cmpi .ne v41 c0_i32_17
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  reduces_S4096x3_S4096 : S4096x3.Reduces [1] S4096
  shapeCasts_S4096_S4096x1 : S4096.ShapeCasts S4096x1
  concatenates_S4096x3_S4096x1_S4096x1_S4096x3_S4096x8_d1 : Shape.Concatenates [S4096x3, S4096x1, S4096x1, S4096x3] S4096x8 1
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x1024_S1024 : S3x1024.Reduces [0] S1024
  shapeCasts_S1024_S1x1024 : S1024.ShapeCasts S1x1024
  concatenates_S3x1024_S1x1024_S1x1024_S3x1024_S8x1024_d0 : Shape.Concatenates [S3x1024, S1x1024, S1x1024, S3x1024] S8x1024 0
  reduces_S4096x1024_S1024 : S4096x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  slices_S4096x1024_o0_0_S4096x128 : S4096x1024.Slices ![0, 0] S4096x128
  slices_S4096x1024_o0_128_S4096x128 : S4096x1024.Slices ![0, 128] S4096x128
  slices_S4096x1024_o0_256_S4096x128 : S4096x1024.Slices ![0, 256] S4096x128
  slices_S4096x1024_o0_384_S4096x128 : S4096x1024.Slices ![0, 384] S4096x128
  slices_S4096x1024_o0_512_S4096x128 : S4096x1024.Slices ![0, 512] S4096x128
  slices_S4096x1024_o0_640_S4096x128 : S4096x1024.Slices ![0, 640] S4096x128
  slices_S4096x1024_o0_768_S4096x128 : S4096x1024.Slices ![0, 768] S4096x128
  slices_S4096x1024_o0_896_S4096x128 : S4096x1024.Slices ![0, 896] S4096x128
  reduces_S4096x128_S4096 : S4096x128.Reduces [1] S4096
  transposes_S4096x1_p1_0_S1x4096 : S4096x1.Transposes [1, 0] S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S4096x8_S8x1024_S4096x1024_1_0_0_1_n_n_wf : DotDims.WF S4096x8 S8x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S8x3x4096.size a
  hwx0_0 : ∀ i : grid0.Coords, EltTy.bits .f32 = 32 ∨ (Rect.block (s := S8x3x4096) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S8x4096x3.size a
  hwx0_1 : ∀ i : grid0.Coords, EltTy.bits .f32 = 32 ∨ (Rect.block (s := S8x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S4096x8_S8x1024_S4096x1024_1_0_0_1_n_n : DotDims S4096x8 S8x1024 S4096x1024 where
  lhsContracting := [1]
  rhsContracting := [0]
  lhsNonContracting := [0]
  rhsNonContracting := [1]
  lhsBatch := []
  rhsBatch := []
  wf := dot_S4096x8_S8x1024_S4096x1024_1_0_0_1_n_n_wf

abbrev win0_0 : Pipeline.Window sig grid0 :=
  Pipeline.Window.ofSpec (Memref.whole main_arg0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x3x4096 : Shape := ⟨3, ![8, 3, 4096]⟩
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 38
  | .vmem => 0
  | .smem => 0
  | _ => 0

abbrev bufTy : (tb : Table) → Fin (tcTables nBuf tb) → BufTy
  | .hbm, ⟨0, _⟩ => ⟨S8x3x4096, .f32⟩
  | .hbm, ⟨1, _⟩ => ⟨S8x4096x3, .f32⟩
  | .hbm, ⟨2, _⟩ => ⟨S8x4096x3, .f32⟩
  | .hbm, ⟨3, _⟩ => ⟨S8x4096x3, .f32⟩
  | .hbm, ⟨4, _⟩ => ⟨S_, .f32⟩
  | .hbm, ⟨5, _⟩ => ⟨S8x4096, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x4096, .f32⟩
  | .hbm, ⟨10, _⟩ => ⟨S8x4096x1, .f32⟩
  | .hbm, ⟨11, _⟩ => ⟨S8x1x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  transposes_S8x3x4096_S8x4096x3_0_2_1 : S8x3x4096.Transposes [0, 2, 1] S8x4096x3
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Pieces.lean ====
/-
  What the kernel body leaves in each buffer at one grid point, case by case, as the body's pure values of what it
  loaded. A batch's first tile builds the augmented ground-truth matrix and starts the lane accumulator from +inf;
  every tile writes its block of nearest-ground-truth distances and folds the tile's lane minima into the accumulator;
  the last tile also folds the accumulator over its lanes into the block of nearest-predicted distances.
-/
import proofs.«144523_j78958678770154_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Chamfer.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## First tile of a batch: the augmented matrix is built and the lane accumulator started -/

theorem out_A_2 (c : Dev nD) (i : grid0.Coords) (arg2 : Memref sig .tc .vmem S1x3x1024 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S4096x8 .f32) (harg6 : arg6.IsWhole) (arg7 : Memref sig .tc .vmem S4096x128 .f32) (harg7 : arg7.IsWhole) (hc0 : cond0_0 i) (hc1 : ¬cond0_1 i) (x0 : Vec F S1x3x1024 .f32) (x1 : Vec F S1x4096x3 .f32) :
    out0_A_2 c i arg2 harg2 arg3 harg3 arg4 harg4 arg5 harg5 arg6 harg6 arg7 harg7 hc0 hc1 x0 x1 = k0_pay6 x0 (k0_pay3 x1) := by
  unfold out0_A_2
  rw [View.read_writes_eq_canon _ _ _ (cover0_A_2 c i arg2 harg2 arg3 harg3 arg4 harg4 arg5 harg5 arg6 harg6 arg7 harg7 hc0 hc1 x0 x1)]
  unfold kernelRun0_A
  dsimp only
  sl_unfold_words
  rw [View.canon_unit_zero (S := S1x1x1024) hz3]
  simp only [View.readCov_unit_zero (S := S4096x8) _ hz2, View.readCov_unit_zero (S := S4096x128) _ hz2, View.readAt_eq_ld, harg2.read_unread, harg3.read_unread, harg6.read_unread, harg7.read_unread, View.ld_unit_zero (S := S1x3x1024) hz3, View.ld_unit_zero (S := S1x4096x3) hz3, View.ld_unit_zero (S := S4096x8) hz2, View.ld_unit_zero (S := S4096x128) hz2]

theorem sout_A_0 (c : Dev nD) (i : grid0.Coords) (arg2 : Memref sig .tc .vmem S1x3x1024 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S4096x8 .f32) (harg6 : arg6.IsWhole) (arg7 : Memref sig .tc .vmem S4096x128 .f32) (harg7 : arg7.IsWhole) (hc0 : cond0_0 i) (hc1 : ¬cond0_1 i) (x0 : Vec F S1x3x1024 .f32) (x1 : Vec F S1x4096x3 .f32) :
    sout0_A_0 c i arg2 harg2 arg3 harg3 arg4 harg4 arg5 harg5 arg6 harg6 arg7 harg7 hc0 hc1 x0 x1 = k0_pay3 x1 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_unit_zero (S := S4096x8) hz2]
  simp only [View.readCov_unit_zero (S := S4096x8) _ hz2, View.readCov_unit_zero (S := S4096x128) _ hz2, View.readAt_eq_ld, harg2.read_unread, harg3.read_unread, harg6.read_unread, harg7.read_unread, View.ld_unit_zero (S := S1x3x1024) hz3, View.ld_unit_zero (S := S1x4096x3) hz3, View.ld_unit_zero (S := S4096x8) hz2, View.ld_unit_zero (S := S4096x128) hz2]

theorem sout_A_1 (c : Dev nD) (i : grid0.Coords) (arg2 : Memref sig .tc .vmem S1x3x1024 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S4096x8 .f32) (harg6 : arg6.IsWhole) (arg7 : Memref sig .tc .vmem S4096x128 .f32) (harg7 : arg7.IsWhole) (hc0 : cond0_0 i) (hc1 : ¬cond0_1 i) (x0 : Vec F S1x3x1024 .f32) (x1 : Vec F S1x4096x3 .f32) :
    sout0_A_1 c i arg2 harg2 arg3 harg3 arg4 harg4 arg5 harg5 arg6 harg6 arg7 harg7 hc0 hc1 x0 x1 = k0_pay1 (k0_pay7 x0 (k0_pay3 x1) (k0_pay4 (F := F))) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S4096x128) hz2]
  simp only [View.readCov_unit_zero (S := S4096x8) _ hz2, View.readCov_unit_zero (S := S4096x128) _ hz2, View.readAt_eq_ld, harg2.read_unread, harg3.read_unread, harg6.read_unread, harg7.read_unread, View.ld_unit_zero (S := S1x3x1024) hz3, View.ld_unit_zero (S := S1x4096x3) hz3, View.ld_unit_zero (S := S4096x8) hz2, View.ld_unit_zero (S := S4096x128) hz2]

/-! ## A middle tile: the accumulator takes the tile's lane minima -/

theorem out_B_2 (c : Dev nD) (i : grid0.Coords) (arg2 : Memref sig .tc .vmem S1x3x1024 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S4096x8 .f32) (harg6 : arg6.IsWhole) (arg7 : Memref sig .tc .vmem S4096x128 .f32) (harg7 : arg7.IsWhole) (hc0 : ¬cond0_0 i) (hc1 : ¬cond0_1 i) (x0 : Vec F S1x3x1024 .f32) (x1 : Vec F S1x4096x3 .f32) (xs0 : Vec F S4096x8 .f32) (xs1 : Vec F S4096x128 .f32) :
    out0_B_2 c i arg2 harg2 arg3 harg3 arg4 harg4 arg5 harg5 arg6 harg6 arg7 harg7 hc0 hc1 x0 x1 xs0 xs1 = k0_pay6 x0 xs0 := by
  unfold out0_B_2
  rw [View.read_writes_eq_canon _ _ _ (cover0_B_2 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x1x1024) hz3]
  simp only [View.readCov_unit_zero (S := S4096x8) _ hz2, View.readCov_unit_zero (S := S4096x128) _ hz2, View.readAt_eq_ld, harg2.read_unread, harg3.read_unread, harg6.read_unread, harg7.read_unread, View.ld_unit_zero (S := S1x3x1024) hz3, View.ld_unit_zero (S := S1x4096x3) hz3, View.ld_unit_zero (S := S4096x8) hz2, View.ld_unit_zero (S := S4096x128) hz2]

theorem sout_B_1 (c : Dev nD) (i : grid0.Coords) (arg2 : Memref sig .tc .vmem S1x3x1024 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S4096x8 .f32) (harg6 : arg6.IsWhole) (arg7 : Memref sig .tc .vmem S4096x128 .f32) (harg7 : arg7.IsWhole) (hc0 : ¬cond0_0 i) (hc1 : ¬cond0_1 i) (x0 : Vec F S1x3x1024 .f32) (x1 : Vec F S1x4096x3 .f32) (xs0 : Vec F S4096x8 .f32) (xs1 : Vec F S4096x128 .f32) :
    sout0_B_1 c i arg2 harg2 arg3 harg3 arg4 harg4 arg5 harg5 arg6 harg6 arg7 harg7 hc0 hc1 x0 x1 xs0 xs1 = k0_pay1 (k0_pay7 x0 xs0 xs1) := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero (S := S4096x128) hz2]
  simp only [View.readCov_unit_zero (S := S4096x8) _ hz2, View.readCov_unit_zero (S := S4096x128) _ hz2, View.readAt_eq_ld, harg2.read_unread, harg3.read_unread, harg6.read_unread, harg7.read_unread, View.ld_unit_zero (S := S1x3x1024) hz3, View.ld_unit_zero (S := S1x4096x3) hz3, View.ld_unit_zero (S := S4096x8) hz2, View.ld_unit_zero (S := S4096x128) hz2]

/-! ## The last tile: the accumulator is folded over its lanes into the second output -/

theorem out_C_2 (c : Dev nD) (i : grid0.Coords) (arg2 : Memref sig .tc .vmem S1x3x1024 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S4096x8 .f32) (harg6 : arg6.IsWhole) (arg7 : Memref sig .tc .vmem S4096x128 .f32) (harg7 : arg7.IsWhole) (hc0 : ¬cond0_0 i) (hc1 : cond0_1 i) (x0 : Vec F S1x3x1024 .f32) (x1 : Vec F S1x4096x3 .f32) (xs0 : Vec F S4096x8 .f32) (xs1 : Vec F S4096x128 .f32) :
    out0_C_2 c i arg2 harg2 arg3 harg3 arg4 harg4 arg5 harg5 arg6 harg6 arg7 harg7 hc0 hc1 x0 x1 xs0 xs1 = k0_pay6 x0 xs0 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x1024) hz3]
  simp only [View.readCov_unit_zero (S := S4096x8) _ hz2, View.readCov_unit_zero (S := S4096x128) _ hz2, View.readAt_eq_ld, harg2.read_unread, harg3.read_unread, harg6.read_unread, harg7.read_unread, View.ld_unit_zero (S := S1x3x1024) hz3, View.ld_unit_zero (S := S1x4096x3) hz3, View.ld_unit_zero (S := S4096x8) hz2, View.ld_unit_zero (S := S4096x128) hz2]

theorem out_C_3 (c : Dev nD) (i : grid0.Coords) (arg2 : Memref sig .tc .vmem S1x3x1024 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S4096x8 .f32) (harg6 : arg6.IsWhole) (arg7 : Memref sig .tc .vmem S4096x128 .f32) (harg7 : arg7.IsWhole) (hc0 : ¬cond0_0 i) (hc1 : cond0_1 i) (x0 : Vec F S1x3x1024 .f32) (x1 : Vec F S1x4096x3 .f32) (xs0 : Vec F S4096x8 .f32) (xs1 : Vec F S4096x128 .f32) :
    out0_C_3 c i arg2 harg2 arg3 harg3 arg4 harg4 arg5 harg5 arg6 harg6 arg7 harg7 hc0 hc1 x0 x1 xs0 xs1 = k0_pay2 (k0_pay1 (k0_pay7 x0 xs0 xs1)) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x4096) hz3]
  simp only [View.readCov_unit_zero (S := S4096x8) _ hz2, View.readCov_unit_zero (S := S4096x128) _ hz2, View.readAt_eq_ld, harg2.read_unread, harg3.read_unread, harg6.read_unread, harg7.read_unread, View.ld_unit_zero (S := S1x3x1024) hz3, View.ld_unit_zero (S := S1x4096x3) hz3, View.ld_unit_zero (S := S4096x8) hz2, View.ld_unit_zero (S := S4096x128) hz2]

theorem sout_C_1 (c : Dev nD) (i : grid0.Coords) (arg2 : Memref sig .tc .vmem S1x3x1024 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S4096x8 .f32) (harg6 : arg6.IsWhole) (arg7 : Memref sig .tc .vmem S4096x128 .f32) (harg7 : arg7.IsWhole) (hc0 : ¬cond0_0 i) (hc1 : cond0_1 i) (x0 : Vec F S1x3x1024 .f32) (x1 : Vec F S1x4096x3 .f32) (xs0 : Vec F S4096x8 .f32) (xs1 : Vec F S4096x128 .f32) :
    sout0_C_1 c i arg2 harg2 arg3 harg3 arg4 harg4 arg5 harg5 arg6 harg6 arg7 harg7 hc0 hc1 x0 x1 xs0 xs1 = k0_pay1 (k0_pay7 x0 xs0 xs1) := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero (S := S4096x128) hz2]
  simp only [View.readCov_unit_zero (S := S4096x8) _ hz2, View.readCov_unit_zero (S := S4096x128) _ hz2, View.readAt_eq_ld, harg2.read_unread, harg3.read_unread, harg6.read_unread, harg7.read_unread, View.ld_unit_zero (S := S1x3x1024) hz3, View.ld_unit_zero (S := S1x4096x3) hz3, View.ld_unit_zero (S := S4096x8) hz2, View.ld_unit_zero (S := S4096x128) hz2]

end Cert.Chamfer.Pieces

end
-- ==== Proof.Spec.lean ====
/-
  The chamfer loss of two point clouds, as functions over the extended reals.

  A predicted cloud `P b d n` (batch `b`, coordinate `d`, point `n`) and a ground-truth cloud `G b m d`.
  The squared distance between predicted point `n` and ground-truth point `m` is spelt two ways:
  * `dotR p g = (|p|² + |g|²) − 2·⟨p, g⟩`, the expanded square, and
  * `dotK g p = ∑ k < 8, gpRow g k · ppCol p k`, ONE inner product of two augmented 8-vectors
    `gpRow g = (g₀, g₁, g₂, |g|², 1, 0, 0, 0)` and `ppCol p = (−2p₀, −2p₁, −2p₂, 1, |p|², 0, 0, 0)`.
  On finite coordinates the two agree (distributivity of the reals).
  The loss takes, per batch, the mean over predicted points of the distance to the nearest ground-truth point
  plus the mean over ground-truth points of the distance to the nearest predicted point, and averages the batches.
  The minimum over the 4096 predicted points can also be taken in stages: four tiles of 1024 points, each folded
  to 128 lanes by eight chunk-wise minima (`tileMin`), accumulated tile after tile from `⊤` (`accum`), and at the
  end the minimum over the 128 lanes.
-/
import Idealize.ShloMosaic.PureOps.Ideal
import Idealize.ShloMosaic.Lib.ValueIdx

noncomputable section

open scoped BigOperators

namespace Cert.Chamfer

open Idealize.ShloMosaic

/-- The float words of the constants the two programs spell: 2, −2 and 1. -/
def cTwo : EReal := Ideal.ofBits .f32 0x40000000#32
def cNegTwo : EReal := Ideal.ofBits .f32 0xC0000000#32
def cOne : EReal := Ideal.ofBits .f32 0x3F800000#32

/-- The augmented ground-truth row `(g₀, g₁, g₂, |g|², 1, 0, 0, 0)`. -/
def gpRow (g : Fin 3 → EReal) (k : Fin 8) : EReal :=
  if h : k.val < 3 then g ⟨k.val, h⟩ else if k.val = 3 then ∑ d : Fin 3, g d * g d else if k.val = 4 then cOne else 0

/-- The augmented predicted column `(−2p₀, −2p₁, −2p₂, 1, |p|², 0, 0, 0)`. -/
def ppCol (p : Fin 3 → EReal) (k : Fin 8) : EReal :=
  if h : k.val < 3 then cNegTwo * p ⟨k.val, h⟩ else if k.val = 3 then cOne else if k.val = 4 then ∑ d : Fin 3, p d * p d else 0

/-- The squared distance as one inner product of the augmented vectors. -/
def dotK (g p : Fin 3 → EReal) : EReal := ∑ k : Fin 8, gpRow g k * ppCol p k

/-- The squared distance as the expanded square. -/
def dotR (p g : Fin 3 → EReal) : EReal :=
  ((∑ d : Fin 3, p d * p d) + (∑ d : Fin 3, g d * g d)) - cTwo * ∑ d : Fin 3, p d * g d

/-- The clouds' points as coordinate vectors. -/
def pPt (P : Fin 8 → Fin 3 → Fin 4096 → EReal) (b : Fin 8) (n : Fin 4096) : Fin 3 → EReal := fun d => P b d n
def gPt (G : Fin 8 → Fin 4096 → Fin 3 → EReal) (b : Fin 8) (m : Fin 4096) : Fin 3 → EReal := fun d => G b m d

/-- Squared distance of predicted point `n` to ground-truth point `m` in batch `b`, in both spellings. -/
def sqdK (P : Fin 8 → Fin 3 → Fin 4096 → EReal) (G : Fin 8 → Fin 4096 → Fin 3 → EReal) (b : Fin 8) (m n : Fin 4096) : EReal :=
  dotK (gPt G b m) (pPt P b n)
def sqdR (P : Fin 8 → Fin 3 → Fin 4096 → EReal) (G : Fin 8 → Fin 4096 → Fin 3 → EReal) (b : Fin 8) (n m : Fin 4096) : EReal :=
  dotR (pPt P b n) (gPt G b m)

/-! ## The staged minimum over the predicted points -/

/-- Lane `l` of chunk `c` of a 1024-wide tile. -/
def jIdx (c : Fin 8) (l : Fin 128) : Fin 1024 := ⟨128 * c.val + l.val, by omega⟩

/-- A tile of 1024 values folded to lane `l`: the minimum of the eight chunks' entries at that lane, in chunk order. -/
def tileMin (f : Fin 1024 → EReal) (l : Fin 128) : EReal :=
  min (min (min (min (min (min (min (f (jIdx 0 l)) (f (jIdx 1 l))) (f (jIdx 2 l))) (f (jIdx 3 l))) (f (jIdx 4 l))) (f (jIdx 5 l))) (f (jIdx 6 l))) (f (jIdx 7 l))

/-- Tile `k` (of four) of 4096 values; `⊤` beyond the last tile. -/
def tileOf (f : Fin 4096 → EReal) (k : ℕ) (j : Fin 1024) : EReal :=
  if h : k < 4 then f ⟨1024 * k + j.val, by omega⟩ else ⊤

/-- The lane accumulator after tiles `0 … k`, started from `⊤`. -/
def accum (f : Fin 4096 → EReal) : ℕ → Fin 128 → EReal
  | 0, l => min ⊤ (tileMin (tileOf f 0) l)
  | k + 1, l => min (accum f k l) (tileMin (tileOf f (k + 1)) l)

/-! ## Nearest-point distances -/

/-- Distance from predicted point `n` to its nearest ground-truth point (expanded-square spelling). -/
def near1 (P : Fin 8 → Fin 3 → Fin 4096 → EReal) (G : Fin 8 → Fin 4096 → Fin 3 → EReal) (b : Fin 8) (n : Fin 4096) : EReal :=
  Finset.univ.inf fun m : Fin 4096 => sqdR P G b n m
/-- Distance from ground-truth point `m` to its nearest predicted point (expanded-square spelling). -/
def near2 (P : Fin 8 → Fin 3 → Fin 4096 → EReal) (G : Fin 8 → Fin 4096 → Fin 3 → EReal) (b : Fin 8) (m : Fin 4096) : EReal :=
  Finset.univ.inf fun n : Fin 4096 => sqdR P G b n m

/-- The same two in the inner-product spelling, the second one staged. -/
def near1K (P : Fin 8 → Fin 3 → Fin 4096 → EReal) (G : Fin 8 → Fin 4096 → Fin 3 → EReal) (b : Fin 8) (n : Fin 4096) : EReal :=
  Finset.univ.inf fun m : Fin 4096 => sqdK P G b m n
def near2K (P : Fin 8 → Fin 3 → Fin 4096 → EReal) (G : Fin 8 → Fin 4096 → Fin 3 → EReal) (b : Fin 8) (m : Fin 4096) : EReal :=
  Finset.univ.inf fun l : Fin 128 => accum (fun n => sqdK P G b m n) 3 l

/-! ## The clouds as arrays -/

/-- The predicted cloud `[8, 3, 4096]` and the ground-truth cloud `[8, 4096, 3]` read by coordinates. -/
def pOf (x : (⟨3, ![8, 3, 4096]⟩ : Shape).Idx → EReal) : Fin 8 → Fin 3 → Fin 4096 → EReal := fun b d n => x (ValueIdx.ix3 b d n)
def gOf (x : (⟨3, ![8, 4096, 3]⟩ : Shape).Idx → EReal) : Fin 8 → Fin 4096 → Fin 3 → EReal := fun b m d => x (ValueIdx.ix3 b m d)

/-- The two `[8, 4096]` arrays of nearest-point distances. -/
def near1Arr (x0 : (⟨3, ![8, 3, 4096]⟩ : Shape).Idx → EReal) (x1 : (⟨3, ![8, 4096, 3]⟩ : Shape).Idx → EReal) :
    (⟨2, ![8, 4096]⟩ : Shape).Idx → EReal := fun i => near1 (pOf x0) (gOf x1) (i 0) (i 1)
def near2Arr (x0 : (⟨3, ![8, 3, 4096]⟩ : Shape).Idx → EReal) (x1 : (⟨3, ![8, 4096, 3]⟩ : Shape).Idx → EReal) :
    (⟨2, ![8, 4096]⟩ : Shape).Idx → EReal := fun i => near2 (pOf x0) (gOf x1) (i 0) (i 1)

end Cert.Chamfer

end
-- ==== Proof.Blocks.lean ====
/-
  The grid's 32 points are (batch, tile) pairs: point `t` is tile `t % 4` of batch `t / 4`. The predicted cloud's
  block at a point is one tile of 1024 points of the batch, the ground-truth block the batch's whole cloud; the first
  output's block is the tile's 1024 entries of its row, the second output's the batch's whole row.
-/
import proofs.«144523_j78958678770154_2_alg».proof.Proof.Pieces
import proofs.«144523_j78958678770154_2_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Chamfer.Blocks

open Cert.KernelIdeal Cert.KernelIdeal.Gen

variable (m : (ℓ : Loc nD τ sig) → Buf (Elt Ideal) ℓ)

/-- The window index maps over the grid: point `t` is tile `t % 4` of batch `t / 4`. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = 0 :=
  (by decide +kernel : ∀ t : Fin grid0.N, _)

/-- The two clouds as the region finds them, by coordinates. -/
def Pm (c : Dev nD) : Fin 8 → Fin 3 → Fin 4096 → EReal := pOf (V m c main_arg0)
def Gm (c : Dev nD) : Fin 8 → Fin 4096 → Fin 3 → EReal := gOf (V m c main_arg1)

theorem tN (t : Fin cfg0.N) : t.val < 32 := lt_of_lt_of_eq t.isLt (show cfg0.N = 32 from N_0)

/-- The predicted tile at point `t`: coordinate `d` of point `1024·(t % 4) + j` of batch `t / 4`. -/
theorem iblk0_apply (c : Dev nD) (t : Fin cfg0.N) (d : Fin 3) (j : Fin 1024) :
    (iblk m c 0 t : Vec Ideal S1x3x1024 .f32) (ix3 0 d j)
      = Pm m c ⟨t.val / 4, by have := tN t; omega⟩ d ⟨1024 * (t.val % 4) + j.val, by have := j.isLt; omega⟩ := by
  obtain ⟨e0, e1, e2, -⟩ := idx_facts t
  unfold iblk Pm pOf
  rw [View.read_apply]
  show V m c main_arg0 _ = V m c main_arg0 _
  congr 1
  funext a
  apply Fin.ext
  match a with
  | ⟨0, _⟩ => show win0_0.index t (0 : Fin 3) * 1 + 1 * 0 = t.val / 4; omega
  | ⟨1, _⟩ => show win0_0.index t (1 : Fin 3) * 3 + 1 * d.val = d.val; omega
  | ⟨2, _⟩ => show win0_0.index t (2 : Fin 3) * 1024 + 1 * j.val = 1024 * (t.val % 4) + j.val; omega

/-- The ground-truth block at point `t`: the whole cloud of batch `t / 4`. -/
theorem iblk1_apply (c : Dev nD) (t : Fin cfg0.N) (mm : Fin 4096) (d : Fin 3) :
    (iblk m c 1 t : Vec Ideal S1x4096x3 .f32) (ix3 0 mm d) = Gm m c ⟨t.val / 4, by have := tN t; omega⟩ mm d := by
  obtain ⟨-, -, -, e0, e1, e2, -⟩ := idx_facts t
  unfold iblk Gm gOf
  rw [View.read_apply]
  show V m c main_arg1 _ = V m c main_arg1 _
  congr 1
  funext a
  apply Fin.ext
  match a with
  | ⟨0, _⟩ => show win0_1.index t (0 : Fin 3) * 1 + 1 * 0 = t.val / 4; omega
  | ⟨1, _⟩ => show win0_1.index t (1 : Fin 3) * 4096 + 1 * mm.val = mm.val; omega
  | ⟨2, _⟩ => show win0_1.index t (2 : Fin 3) * 3 + 1 * d.val = d.val; omega

end Cert.Chamfer.Blocks

end
-- ==== Proof.PayAug.lean ====
/-
  The augmented ground-truth matrix. The kernel's first grid step builds, from a block of 4096 ground-truth points
  `g`, the 4096 × 8 matrix whose row `m` is `(g₀, g₁, g₂, |g|², 1, 0, 0, 0)`: the three coordinate columns, the column
  of squared norms (a lane sum of the squares), a column of ones and three columns of zeros, laid side by side.
  Read at an entry `(m, k)` this is entry `k` of the augmented row of point `m`.
-/
import proofs.«144523_j78958678770154_2_alg».proof.Proof.Gen.KernelIdeal.Skeleton
import proofs.«144523_j78958678770154_2_alg».proof.Proof.Spec
import Idealize.ShloMosaic.Lib.ValueLayout
import Idealize.ShloMosaic.PureOps.Ideal.Laws

noncomputable section

open scoped BigOperators

namespace Cert.Chamfer.Aug

open Idealize.ShloMosaic Idealize.ShloMosaic.ValueIdx Cert.KernelIdeal Cert.KernelIdeal.Gen

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Entry `(m, k)` of the augmented ground-truth matrix is entry `k` of the augmented row of point `m`:
    the three coordinates, their sum of squares, the unit word, and zeros. -/
theorem pay3_apply (x1 : Vec Ideal S1x4096x3 .f32) (m : Fin 4096) (k : Fin 8) :
    k0_pay3 (F := Ideal) x1 (ix2 m k) = Cert.Chamfer.gpRow (fun d => x1 (ix3 0 m d)) k := by
  unfold k0_pay3
  rw [shapeCast_self]
  generalize hg : shapeCast S4096x3 x1 shapeCasts_S1x4096x3_S4096x3 = g
  have hgv : ∀ d : Fin 3, g (ix2 m d) = x1 (ix3 0 m d) := fun d => by
    rw [← hg]; exact shapeCast_1ab_ab_apply x1 _ m d
  by_cases h3 : k.val < 3
  · rw [gpRow, dif_pos h3]
    refine (concatenate_apply_piece _ _ _ (ix2 m k) 0 (by show (0 : ℕ) < 4; omega) S4096x3 g rfl rfl 0 rfl (ix2 m ⟨k.val, h3⟩) ?_ ?_).trans (hgv _)
    · intro b; match b with
      | ⟨0, _⟩ => intro _; rfl
      | ⟨1, _⟩ => intro hb; exact absurd rfl hb
    · exact Nat.zero_add _
  · by_cases h3' : k.val = 3
    · rw [gpRow, dif_neg h3, if_pos h3']
      refine (concatenate_apply_piece _ _ _ (ix2 m k) 1 (by show (1 : ℕ) < 4; omega) S4096x1 _ rfl rfl 3 rfl (ix2 m (0 : Fin 1)) ?_ ?_).trans ?_
      · intro b; match b with
        | ⟨0, _⟩ => intro _; rfl
        | ⟨1, _⟩ => intro hb; exact absurd rfl hb
      · show 3 + 0 = k.val
        omega
      · refine (shapeCast_a_a1_apply _ _ m 0).trans ?_
        refine (Ideal.multiReduction_add_single _ _ _ _ _ _).trans ?_
        refine Finset.sum_congr rfl fun (d : Fin 3) _ => ?_
        have e : reduces_S4096x3_S4096.lift (ix1 m) d = ix2 m d :=
          funext fun c => Fin.ext (by match c with | ⟨0, _⟩ => rfl | ⟨1, _⟩ => rfl)
        rw [e]
        exact (mulf_apply g g (ix2 m d)).trans (congrArg₂ (· * ·) (hgv d) (hgv d))
    · by_cases h4 : k.val = 4
      · rw [gpRow, dif_neg h3, if_neg h3', if_pos h4]
        refine (concatenate_apply_piece _ _ _ (ix2 m k) 2 (by show (2 : ℕ) < 4; omega) S4096x1 _ rfl rfl 4 rfl (ix2 m (0 : Fin 1)) ?_ ?_).trans ?_
        · intro b; match b with
          | ⟨0, _⟩ => intro _; rfl
          | ⟨1, _⟩ => intro hb; exact absurd rfl hb
        · show 4 + 0 = k.val
          omega
        · unfold cOne; rfl
      · rw [gpRow, dif_neg h3, if_neg h3', if_neg h4]
        have h5 : k.val - 5 < 3 := by have := k.isLt; omega
        refine (concatenate_apply_piece _ _ _ (ix2 m k) 3 (by show (3 : ℕ) < 4; omega) S4096x3 _ rfl rfl 5 rfl (ix2 m ⟨k.val - 5, h5⟩) ?_ ?_).trans ?_
        · intro b; match b with
          | ⟨0, _⟩ => intro _; rfl
          | ⟨1, _⟩ => intro hb; exact absurd rfl hb
        · show 5 + (k.val - 5) = k.val
          omega
        · exact Ideal.ofBits_zero_f32

end Cert.Chamfer.Aug

end
-- ==== Proof.PayDist.lean ====
/-
  The tile of squared distances as one matrix product. At every grid step the kernel builds, from a tile of 1024
  predicted points `p`, the 8 × 1024 matrix whose column `j` is `(−2p₀, −2p₁, −2p₂, 1, |p|², 0, 0, 0)` (three scaled
  coordinate rows, a row of ones, the row of squared norms, three rows of zeros, stacked), and multiplies the
  4096 × 8 augmented ground-truth matrix by it into the zero matrix. Read at an entry `(m, j)` the product is the
  inner product over the eight augmented coordinates of row `m` of the left matrix with the augmented column of
  predicted point `j`.
-/
import proofs.«144523_j78958678770154_2_alg».proof.Proof.Gen.KernelIdeal.Skeleton
import proofs.«144523_j78958678770154_2_alg».proof.Proof.Spec
import Idealize.ShloMosaic.Lib.ValueLayout
import Idealize.ShloMosaic.PureOps.Ideal.Laws

noncomputable section

open scoped BigOperators

namespace Cert.Chamfer.Dist

open Idealize.ShloMosaic Idealize.ShloMosaic.ValueIdx Cert.KernelIdeal Cert.KernelIdeal.Gen

/-- The augmented predicted matrix: the right operand of the kernel's product. -/
def ppMat (x0 : Vec Ideal S1x3x1024 .f32) : FVec Ideal S8x1024 .f32 :=
  concatenate S8x1024 0
    [⟨S3x1024, mulf (broadcast S3x1024 (Scalar.ofBits (F := Ideal) .f32 0xC0000000#32))
        (shapeCast S3x1024 x0 shapeCasts_S1x3x1024_S3x1024)⟩,
     ⟨S1x1024, broadcast S1x1024 (Scalar.ofBits (F := Ideal) .f32 0x3F800000#32)⟩,
     ⟨S1x1024, shapeCast S1x1024
        (multiReduction (F := Ideal) .add [0] S1024
          (mulf (shapeCast S3x1024 x0 shapeCasts_S1x3x1024_S3x1024) (shapeCast S3x1024 x0 shapeCasts_S1x3x1024_S3x1024))
          0x00000000#32 reduces_S3x1024_S1024 (.inl rfl) rfl)
        shapeCasts_S1024_S1x1024⟩,
     ⟨S3x1024, broadcast S3x1024 (Scalar.ofBits (F := Ideal) .f32 0x00000000#32)⟩]
    concatenates_S3x1024_S1x1024_S1x1024_S3x1024_S8x1024_d0

/-- Entry `(k, j)` of the augmented predicted matrix is entry `k` of the augmented column of point `j`. -/
theorem ppMat_apply (x0 : Vec Ideal S1x3x1024 .f32) (k : Fin 8) (j : Fin 1024) :
    ppMat x0 (ix2 k j) = Cert.Chamfer.ppCol (fun d => x0 (ix3 0 d j)) k := by
  unfold ppMat
  generalize hp : shapeCast S3x1024 x0 shapeCasts_S1x3x1024_S3x1024 = p
  have hpv : ∀ d : Fin 3, p (ix2 d j) = x0 (ix3 0 d j) := fun d => by
    rw [← hp]; exact shapeCast_1ab_ab_apply x0 _ d j
  by_cases h3 : k.val < 3
  · rw [ppCol, dif_pos h3]
    refine (concatenate_apply_piece _ _ _ (ix2 k j) 0 (by show (0 : ℕ) < 4; omega) S3x1024 _ rfl rfl 0 rfl
      (ix2 ⟨k.val, h3⟩ j) ?_ ?_).trans ?_
    · intro b; match b with
      | ⟨0, _⟩ => intro hb; exact absurd rfl hb
      | ⟨1, _⟩ => intro _; rfl
    · exact Nat.zero_add _
    · refine (mulf_apply _ p (ix2 ⟨k.val, h3⟩ j)).trans ?_
      unfold cNegTwo
      exact congrArg (Ideal.ofBits .f32 0xC0000000#32 * ·) (hpv _)
  · by_cases h3' : k.val = 3
    · rw [ppCol, dif_neg h3, if_pos h3']
      refine (concatenate_apply_piece _ _ _ (ix2 k j) 1 (by show (1 : ℕ) < 4; omega) S1x1024 _ rfl rfl 3 rfl
        (ix2 (0 : Fin 1) j) ?_ ?_).trans ?_
      · intro b; match b with
        | ⟨0, _⟩ => intro hb; exact absurd rfl hb
        | ⟨1, _⟩ => intro _; rfl
      · show 3 + 0 = k.val
        omega
      · unfold cOne; rfl
    · by_cases h4 : k.val = 4
      · rw [ppCol, dif_neg h3, if_neg h3', if_pos h4]
        refine (concatenate_apply_piece _ _ _ (ix2 k j) 2 (by show (2 : ℕ) < 4; omega) S1x1024 _ rfl rfl 4 rfl
          (ix2 (0 : Fin 1) j) ?_ ?_).trans ?_
        · intro b; match b with
          | ⟨0, _⟩ => intro hb; exact absurd rfl hb
          | ⟨1, _⟩ => intro _; rfl
        · show 4 + 0 = k.val
          omega
        · refine (shapeCast_a_1a_apply _ _ 0 j).trans ?_
          refine (Ideal.multiReduction_add_single _ _ _ _ _ _).trans ?_
          refine Finset.sum_congr rfl fun (d : Fin 3) _ => ?_
          have e : reduces_S3x1024_S1024.lift (ix1 j) d = ix2 d j :=
            funext fun c => Fin.ext (by match c with | ⟨0, _⟩ => rfl | ⟨1, _⟩ => rfl)
          rw [e]
          exact (mulf_apply p p (ix2 d j)).trans (congrArg₂ (· * ·) (hpv d) (hpv d))
      · rw [ppCol, dif_neg h3, if_neg h3', if_neg h4]
        have h5 : k.val - 5 < 3 := by have := k.isLt; omega
        refine (concatenate_apply_piece _ _ _ (ix2 k j) 3 (by show (3 : ℕ) < 4; omega) S3x1024 _ rfl rfl 5 rfl
          (ix2 ⟨k.val - 5, h5⟩ j) ?_ ?_).trans ?_
        · intro b; match b with
          | ⟨0, _⟩ => intro hb; exact absurd rfl hb
          | ⟨1, _⟩ => intro _; rfl
        · show 5 + (k.val - 5) = k.val
          omega
        · exact Ideal.ofBits_zero_f32

/-! The product's operand indices: at result entry `(m, j)` and contraction coordinate `k` the left operand is read
    at `(m, k)` and the right one at `(k, j)`. -/

theorem lhs_0 (i : S4096x1024.Idx) (q : dot_S4096x8_S8x1024_S4096x1024_1_0_0_1_n_n.contr.Idx) :
    (dot_S4096x8_S8x1024_S4096x1024_1_0_0_1_n_n.lhsIdx i q 0).val = (i 0).val := by
  unfold DotDims.lhsIdx
  rw [dif_neg (show ¬(0 : Fin S4096x8.rank) ∈ dot_S4096x8_S8x1024_S4096x1024_1_0_0_1_n_n.lhsBatch by decide),
    dif_pos (show (0 : Fin S4096x8.rank) ∈ dot_S4096x8_S8x1024_S4096x1024_1_0_0_1_n_n.lhsNonContracting by decide)]
  rfl
theorem lhs_1 (i : S4096x1024.Idx) (q : dot_S4096x8_S8x1024_S4096x1024_1_0_0_1_n_n.contr.Idx) :
    (dot_S4096x8_S8x1024_S4096x1024_1_0_0_1_n_n.lhsIdx i q 1).val = (q ⟨0, by decide⟩).val :=
  dot_S4096x8_S8x1024_S4096x1024_1_0_0_1_n_n.lhsIdx_val_of_single rfl i q
theorem rhs_0 (i : S4096x1024.Idx) (q : dot_S4096x8_S8x1024_S4096x1024_1_0_0_1_n_n.contr.Idx) :
    (dot_S4096x8_S8x1024_S4096x1024_1_0_0_1_n_n.rhsIdx i q 0).val = (q ⟨0, by decide⟩).val :=
  dot_S4096x8_S8x1024_S4096x1024_1_0_0_1_n_n.rhsIdx_val_of_single rfl i q
theorem rhs_1 (i : S4096x1024.Idx) (q : dot_S4096x8_S8x1024_S4096x1024_1_0_0_1_n_n.contr.Idx) :
    (dot_S4096x8_S8x1024_S4096x1024_1_0_0_1_n_n.rhsIdx i q 1).val = (i 1).val := by
  unfold DotDims.rhsIdx
  rw [dif_neg (show ¬(1 : Fin S8x1024.rank) ∈ dot_S4096x8_S8x1024_S4096x1024_1_0_0_1_n_n.rhsBatch by decide),
    dif_pos (show (1 : Fin S8x1024.rank) ∈ dot_S4096x8_S8x1024_S4096x1024_1_0_0_1_n_n.rhsNonContracting by decide)]
  rfl

/-- The product of a 4096 × 8 matrix with an 8 × 1024 one into the zero matrix, read at `(m, j)`: the sum over the
    eight contraction coordinates. -/
theorem matmul_apply8 (gp : FVec Ideal S4096x8 .f32) (P : FVec Ideal S8x1024 .f32) (m : Fin 4096) (j : Fin 1024) :
    matmul dot_S4096x8_S8x1024_S4096x1024_1_0_0_1_n_n (some .fp32) gp P (constant (F := Ideal) S4096x1024 .f32 0x00000000#32) (ix2 m j)
      = ∑ k : Fin 8, gp (ix2 m k) * P (ix2 k j) := by
  refine (Ideal.matmul_constant_zero_apply _ _ _ _ _).trans ?_
  rw [← Equiv.sum_comp (contrEquiv1 dot_S4096x8_S8x1024_S4096x1024_1_0_0_1_n_n 8 rfl rfl).symm]
  refine Finset.sum_congr rfl fun k _ => ?_
  have hk := contrEquiv1_symm_val dot_S4096x8_S8x1024_S4096x1024_1_0_0_1_n_n 8 rfl rfl k
  have el : dot_S4096x8_S8x1024_S4096x1024_1_0_0_1_n_n.lhsIdx (ix2 m j)
      ((contrEquiv1 dot_S4096x8_S8x1024_S4096x1024_1_0_0_1_n_n 8 rfl rfl).symm k) = ix2 m k :=
    funext fun a => Fin.ext (by
      match a with
      | ⟨0, _⟩ => exact lhs_0 _ _
      | ⟨1, _⟩ => exact (lhs_1 _ _).trans hk)
  have er : dot_S4096x8_S8x1024_S4096x1024_1_0_0_1_n_n.rhsIdx (ix2 m j)
      ((contrEquiv1 dot_S4096x8_S8x1024_S4096x1024_1_0_0_1_n_n 8 rfl rfl).symm k) = ix2 k j :=
    funext fun a => Fin.ext (by
      match a with
      | ⟨0, _⟩ => exact (rhs_0 _ _).trans hk
      | ⟨1, _⟩ => exact rhs_1 _ _)
  rw [el, er]

/-- Entry `(m, j)` of the kernel's product: the inner product of row `m` of the left matrix with the augmented column
    of predicted point `j`. -/
theorem pay5_apply (x0 : Vec Ideal S1x3x1024 .f32) (gp : Vec Ideal S4096x8 .f32) (m : Fin 4096) (j : Fin 1024) :
    k0_pay5 (F := Ideal) x0 gp (ix2 m j) = ∑ k : Fin 8, gp (ix2 m k) * Cert.Chamfer.ppCol (fun d => x0 (ix3 0 d j)) k := by
  unfold k0_pay5
  refine (matmul_apply8 gp (ppMat x0) m j).trans ?_
  exact Finset.sum_congr rfl fun k _ => congrArg (gp (ix2 m k) * ·) (ppMat_apply x0 k j)

end Cert.Chamfer.Dist

end
-- ==== Proof.PayMins.lean ====
/-
  The kernel's minima. From the 4096 × 1024 tile of squared distances the kernel takes (i) per predicted point the
  minimum over the 4096 ground-truth points, started from +∞, and (ii) per ground-truth point and lane the minimum of
  the eight 128-wide chunks' entries at that lane, folded in chunk order and then into the running lane accumulator.
  The accumulator starts at +∞ in every entry, is stored back unchanged by a cast to its own shape, and at the last
  tile its minimum over the 128 lanes, again from +∞, is laid out as a row. Over the extended reals a minimum started
  from +∞ over a whole axis is the infimum over that axis's coordinates.
-/
import proofs.«144523_j78958678770154_2_alg».proof.Proof.Gen.KernelIdeal.Skeleton
import proofs.«144523_j78958678770154_2_alg».proof.Proof.Spec
import proofs.«144523_j78958678770154_2_alg».proof.Proof.PayAug
import Idealize.ShloMosaic.Lib.ValueLayout
import Idealize.ShloMosaic.PureOps.Ideal.Laws

noncomputable section

open scoped BigOperators

namespace Cert.Chamfer.Mins

open Idealize.ShloMosaic Idealize.ShloMosaic.ValueIdx Cert.KernelIdeal Cert.KernelIdeal.Gen

/-- The word `0x7F800000` is +∞. -/
theorem ofBits_inf : Ideal.ofBits .f32 0x7F800000#32 = (⊤ : EReal) := by
  simp [Ideal.ofBits, Ideal.ieee]

/-- A fold of `min` started from `⊤` is the infimum. -/
theorem fold_min_top_eq_inf {ι : Type} (s : Finset ι) (f : ι → EReal) : s.fold min ⊤ f = s.inf f := by
  classical
  induction s using Finset.induction_on with
  | empty => simp
  | insert a s ha ih => rw [Finset.fold_insert ha, Finset.inf_insert, ih]

/-- A minimum over ONE axis started from the +∞ word, read at a reduced index: the infimum over that axis's
    coordinates of the source at the index with the coordinate inserted. -/
theorem multiReduction_minimumf_single_inf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction (F := Ideal) .minimumf [a] t src 0x7F800000#32 h hφ hacc j
      = (Finset.univ : Finset (Fin (s.size a))).inf fun k => src (h.lift j k) := by
  rw [multiReduction_minimumf_eq_fold]
  refine (h.fold_filter_drop_single _ _ src j).trans ?_
  show (Finset.univ : Finset (Fin (s.size a))).fold min (Ideal.ofBits .f32 0x7F800000#32) (src ∘ h.lift j) = _
  rw [ofBits_inf, fold_min_top_eq_inf]
  rfl

/-- The per-predicted-point output: the infimum over the ground-truth points of the tile's column. -/
theorem pay6_apply (x0 : Vec Ideal S1x3x1024 .f32) (gp : Vec Ideal S4096x8 .f32) (j : Fin 1024) :
    k0_pay6 (F := Ideal) x0 gp (ix3 0 0 j)
      = Finset.univ.inf fun m : Fin 4096 => k0_pay5 (F := Ideal) x0 gp (ix2 m j) := by
  unfold k0_pay6
  generalize k0_pay5 (F := Ideal) x0 gp = T
  refine (shapeCast_ab_1ab_apply _ _ 0 0 j).trans ?_
  refine (shapeCast_a_1a_apply _ _ 0 j).trans ?_
  refine (multiReduction_minimumf_single_inf _ _ _ _ _).trans ?_
  refine Finset.inf_congr rfl fun (m : Fin 4096) _ => ?_
  exact congrArg T (funext fun c => Fin.ext (by match c with | ⟨0, _⟩ => rfl | ⟨1, _⟩ => rfl))

/-- The lane accumulator's update: the old entry against the tile folded to that lane, chunk by chunk. -/
theorem pay7_apply (x0 : Vec Ideal S1x3x1024 .f32) (gp : Vec Ideal S4096x8 .f32) (acc : Vec Ideal S4096x128 .f32)
    (m : Fin 4096) (l : Fin 128) :
    k0_pay7 (F := Ideal) x0 gp acc (ix2 m l)
      = min (acc (ix2 m l)) (Cert.Chamfer.tileMin (fun j => k0_pay5 (F := Ideal) x0 gp (ix2 m j)) l) := by
  unfold k0_pay7
  generalize k0_pay5 (F := Ideal) x0 gp = T
  have s0 := slice2_axis1_apply 0 T slices_S4096x1024_o0_0_S4096x128 m l (jIdx 0 l) rfl
  have s1 := slice2_axis1_apply 128 T slices_S4096x1024_o0_128_S4096x128 m l (jIdx 1 l) rfl
  have s2 := slice2_axis1_apply 256 T slices_S4096x1024_o0_256_S4096x128 m l (jIdx 2 l) rfl
  have s3 := slice2_axis1_apply 384 T slices_S4096x1024_o0_384_S4096x128 m l (jIdx 3 l) rfl
  have s4 := slice2_axis1_apply 512 T slices_S4096x1024_o0_512_S4096x128 m l (jIdx 4 l) rfl
  have s5 := slice2_axis1_apply 640 T slices_S4096x1024_o0_640_S4096x128 m l (jIdx 5 l) rfl
  have s6 := slice2_axis1_apply 768 T slices_S4096x1024_o0_768_S4096x128 m l (jIdx 6 l) rfl
  have s7 := slice2_axis1_apply 896 T slices_S4096x1024_o0_896_S4096x128 m l (jIdx 7 l) rfl
  unfold tileMin
  refine (minimumf_apply acc _ (ix2 m l)).trans (congrArg (min (acc (ix2 m l))) ?_)
  refine (minimumf_apply _ _ (ix2 m l)).trans (congrArg₂ min ?_ s7)
  refine (minimumf_apply _ _ (ix2 m l)).trans (congrArg₂ min ?_ s6)
  refine (minimumf_apply _ _ (ix2 m l)).trans (congrArg₂ min ?_ s5)
  refine (minimumf_apply _ _ (ix2 m l)).trans (congrArg₂ min ?_ s4)
  refine (minimumf_apply _ _ (ix2 m l)).trans (congrArg₂ min ?_ s3)
  refine (minimumf_apply _ _ (ix2 m l)).trans (congrArg₂ min ?_ s2)
  exact (minimumf_apply _ _ (ix2 m l)).trans (congrArg₂ min s0 s1)

/-- The accumulator is stored back as it is. -/
theorem pay1_eq (v : FVec Ideal S4096x128 .f32) : k0_pay1 (F := Ideal) v = v := by
  unfold k0_pay1
  exact shapeCast_self v _

/-- The accumulator starts at +∞ everywhere. -/
theorem pay4_apply (i : S4096x128.Idx) : k0_pay4 (F := Ideal) i = (⊤ : EReal) := by
  unfold k0_pay4
  rw [shapeCast_self]
  exact ofBits_inf

/-- The per-ground-truth-point output: the infimum over the 128 lanes of the accumulator's row. -/
theorem pay2_apply (acc : Vec Ideal S4096x128 .f32) (m : Fin 4096) :
    k0_pay2 (F := Ideal) acc (ix3 0 0 m) = Finset.univ.inf fun l : Fin 128 => acc (ix2 m l) := by
  unfold k0_pay2
  refine (shapeCast_ab_1ab_apply _ _ 0 0 m).trans ?_
  refine (transpose_ix2_apply _ _ 0 m).trans ?_
  refine (Cert.Chamfer.Aug.shapeCast_a_a1_apply _ _ m 0).trans ?_
  refine (multiReduction_minimumf_single_inf _ _ _ _ _).trans ?_
  refine Finset.inf_congr rfl fun (l : Fin 128) _ => ?_
  exact congrArg acc (funext fun c => Fin.ext (by match c with | ⟨0, _⟩ => rfl | ⟨1, _⟩ => rfl))

end Cert.Chamfer.Mins

end
-- ==== Proof.Carry.lean ====
/-
  What the kernel carries from one grid point to the next within a batch: the augmented ground-truth matrix, built at
  the batch's first tile and kept, and the lane accumulator, which after tile `k` holds, per ground-truth point and
  lane, the minimum of the squared distances to the predicted points of tiles `0 … k` at that lane — by induction on
  the grid point.
-/
import proofs.«144523_j78958678770154_2_alg».proof.Proof.Blocks
import proofs.«144523_j78958678770154_2_alg».proof.Proof.PayAug
import proofs.«144523_j78958678770154_2_alg».proof.Proof.PayDist
import proofs.«144523_j78958678770154_2_alg».proof.Proof.PayMins

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.Chamfer.Carry

open Cert.KernelIdeal Cert.KernelIdeal.Gen Cert.Chamfer.Blocks Cert.Chamfer.Pieces Cert.Chamfer.Aug Cert.Chamfer.Dist Cert.Chamfer.Mins

variable (m : (ℓ : Loc nD τ sig) → Buf (Elt Ideal) ℓ)

/-- One tile's entry of the product of the augmented matrices is the squared distance of the ground-truth point to the
    tile's predicted point. -/
theorem tile_entry (P : Fin 8 → Fin 3 → Fin 4096 → EReal) (G : Fin 8 → Fin 4096 → Fin 3 → EReal) (b : Fin 8) (nt : ℕ) (hnt : nt < 4)
    (x0 : Vec Ideal S1x3x1024 .f32) (gp : Vec Ideal S4096x8 .f32)
    (hx0 : ∀ (d : Fin 3) (j : Fin 1024), x0 (ix3 0 d j) = P b d ⟨1024 * nt + j.val, by have := j.isLt; omega⟩)
    (hgp : ∀ (mm : Fin 4096) (k : Fin 8), gp (ix2 mm k) = gpRow (gPt G b mm) k) (mm : Fin 4096) (j : Fin 1024) :
    k0_pay5 (F := Ideal) x0 gp (ix2 mm j) = tileOf (fun nn => sqdK P G b mm nn) nt j := by
  rw [pay5_apply]
  unfold tileOf
  rw [dif_pos hnt]
  unfold sqdK dotK
  refine Finset.sum_congr rfl fun k _ => ?_
  rw [hgp]
  congr 2
  funext d
  exact hx0 d j

/-- The batch of point `n`. -/
def bOf (n : ℕ) (h : n < cfg0.N) : Fin 8 := ⟨n / 4, by have : cfg0.N = 32 := N_0; omega⟩

/-- What the two carried buffers hold after point `n` (tile `n % 4` of batch `n / 4`): the batch's augmented
    ground-truth matrix, and per ground-truth point and lane the minimum over the tiles so far. -/
def Carried (c : Dev nD) (n : ℕ) (h : n < cfg0.N) : Prop :=
  (∀ (mm : Fin 4096) (k : Fin 8), (outsAt0 m c n h).2.2.1 (ix2 mm k) = gpRow (gPt (Gm m c) (bOf n h) mm) k)
  ∧ (∀ (mm : Fin 4096) (l : Fin 128), (outsAt0 m c n h).2.2.2 (ix2 mm l) = accum (fun nn => sqdK (Pm m c) (Gm m c) (bOf n h) mm nn) (n % 4) l)

/-- The predicted tile at a point, in the form `tile_entry` takes. -/
theorem hx0_at (c : Dev nD) (t : Fin cfg0.N) (d : Fin 3) (j : Fin 1024) :
    (iblk m c 0 t : Vec Ideal S1x3x1024 .f32) (ix3 0 d j) = Pm m c (bOf t.val t.isLt) d ⟨1024 * (t.val % 4) + j.val, by have := j.isLt; omega⟩ :=
  iblk0_apply m c t d j

/-- A batch's first tile. -/
theorem inv_first (c : Dev nD) (t : Fin cfg0.N) (h0 : t.val % 4 = 0) : Carried m c t.val t.isLt := by
  have h1 : ¬t.val % 4 = 3 := by omega
  have hgp : ∀ (mm : Fin 4096) (k : Fin 8), k0_pay3 (F := Ideal) (iblk m c 1 t) (ix2 mm k) = gpRow (gPt (Gm m c) (bOf t.val t.isLt) mm) k := by
    intro mm k
    refine (pay3_apply (iblk m c 1 t) mm k).trans ?_
    congr 1
    funext d
    exact iblk1_apply m c t mm d
  unfold Carried
  rw [outsAt0_A m c t h0 h1]
  dsimp only
  rw [sout_A_0, sout_A_1, pay1_eq]
  refine ⟨hgp, fun mm l => ?_⟩
  refine (pay7_apply (iblk m c 0 t) (k0_pay3 (F := Ideal) (iblk m c 1 t)) (k0_pay4 (F := Ideal)) mm l).trans ?_
  rw [pay4_apply, h0]
  show _ = min ⊤ (tileMin (tileOf (fun nn => sqdK (Pm m c) (Gm m c) (bOf t.val t.isLt) mm nn) 0) l)
  congr 2
  funext j
  have := tile_entry (Pm m c) (Gm m c) (bOf t.val t.isLt) (t.val % 4) (by omega) (iblk m c 0 t) (k0_pay3 (F := Ideal) (iblk m c 1 t)) (hx0_at m c t) hgp mm j
  rw [h0] at this
  exact this

/-- A later tile of a batch, from the tile before. -/
theorem inv_next (c : Dev nD) (t : Fin cfg0.N) (h0 : ¬t.val % 4 = 0) (hp : t.val - 1 < cfg0.N) (ih : Carried m c (t.val - 1) hp) :
    (∀ (mm : Fin 4096) (k : Fin 8), (outsAt0 m c (t.val - 1) hp).2.2.1 (ix2 mm k) = gpRow (gPt (Gm m c) (bOf t.val t.isLt) mm) k)
    ∧ (∀ (mm : Fin 4096) (l : Fin 128), k0_pay1 (F := Ideal) (k0_pay7 (F := Ideal) (iblk m c 0 t) (outsAt0 m c (t.val - 1) hp).2.2.1 (outsAt0 m c (t.val - 1) hp).2.2.2) (ix2 mm l)
        = accum (fun nn => sqdK (Pm m c) (Gm m c) (bOf t.val t.isLt) mm nn) (t.val % 4) l) := by
  have hb : bOf (t.val - 1) hp = bOf t.val t.isLt := by unfold bOf; apply Fin.ext; show (t.val - 1) / 4 = t.val / 4; omega
  have hk : t.val % 4 = (t.val - 1) % 4 + 1 := by omega
  obtain ⟨ih0, ih1⟩ := ih
  rw [hb] at ih0 ih1
  refine ⟨ih0, fun mm l => ?_⟩
  rw [pay1_eq]
  refine (pay7_apply (iblk m c 0 t) _ _ mm l).trans ?_
  rw [ih1 mm l, hk]
  show _ = min (accum _ ((t.val - 1) % 4) l) (tileMin (tileOf _ ((t.val - 1) % 4 + 1)) l)
  congr 2
  funext j
  have := tile_entry (Pm m c) (Gm m c) (bOf t.val t.isLt) (t.val % 4) (by omega) (iblk m c 0 t) (outsAt0 m c (t.val - 1) hp).2.2.1 (hx0_at m c t) ih0 mm j
  rw [hk] at this
  exact this

/-- The invariant holds after every point. -/
theorem inv_all (c : Dev nD) : ∀ (n : ℕ) (h : n < cfg0.N), Carried m c n h
  | 0, h => inv_first m c ⟨0, h⟩ rfl
  | n + 1, h => by
    by_cases h0 : (n + 1) % 4 = 0
    · exact inv_first m c ⟨n + 1, h⟩ h0
    · have hp : (⟨n + 1, h⟩ : Fin cfg0.N).val - 1 < cfg0.N := by show n + 1 - 1 < _; omega
      have ih : Carried m c ((⟨n + 1, h⟩ : Fin cfg0.N).val - 1) hp := inv_all c n (by omega)
      have hnext := inv_next m c ⟨n + 1, h⟩ h0 hp ih
      unfold Carried
      by_cases h1 : (n + 1) % 4 = 3
      · rw [show outsAt0 m c (n + 1) h = _ from outsAt0_C m c ⟨n + 1, h⟩ h0 h1]
        dsimp only
        rw [sout_C_1]
        exact hnext
      · rw [show outsAt0 m c (n + 1) h = _ from outsAt0_B m c ⟨n + 1, h⟩ h0 h1]
        dsimp only
        rw [sout_B_1]
        exact hnext

end Cert.Chamfer.Carry

end
-- ==== Proof.Tail.lean ====
/-
  The end of the chamfer loss, from the two arrays of nearest-point distances: per batch the mean of each array's
  row (its sum over 4096 entries divided by 4096), the two means added, the eight batch values summed and divided by 8.
  Stated with the host's own operations so that two programs ending this way end in one term.
-/
import Idealize.ShloMosaic.PureOps.Ideal
import proofs.«144523_j78958678770154_2_alg».proof.Proof.Spec

noncomputable section

namespace Cert.Chamfer

open Idealize.ShloMosaic

variable {F : FTy → Type} [FloatOps F]

/-- `(∑_b ((∑_n d1 b n) / 4096 + (∑_m d2 b m) / 4096)) / 8`, each sum started from the zero word. -/
def lossTail (d1 d2 : FVec F ⟨2, ![8, 4096]⟩ .f32) : FVec F ⟨0, ![]⟩ .f32 :=
  Host.divf
    (Host.reduceAdd (axes := [0]) (t := ⟨0, ![]⟩)
      (addf
        (Host.divf (Host.reduceAdd (axes := [1]) (t := ⟨1, ![8]⟩) d1 (constant ⟨0, ![]⟩ .f32 0x00000000#32))
          (broadcastInDim ⟨1, ![8]⟩ ![] (by decide) (constant ⟨0, ![]⟩ .f32 0x45800000#32)))
        (Host.divf (Host.reduceAdd (axes := [1]) (t := ⟨1, ![8]⟩) d2 (constant ⟨0, ![]⟩ .f32 0x00000000#32))
          (broadcastInDim ⟨1, ![8]⟩ ![] (by decide) (constant ⟨0, ![]⟩ .f32 0x45800000#32))))
      (constant ⟨0, ![]⟩ .f32 0x00000000#32))
    (constant ⟨0, ![]⟩ .f32 0x41000000#32)

/-- The chamfer loss of the two clouds. -/
def loss (x0 : (⟨3, ![8, 3, 4096]⟩ : Shape).Idx → EReal) (x1 : (⟨3, ![8, 4096, 3]⟩ : Shape).Idx → EReal) :
    FVec Ideal ⟨0, ![]⟩ .f32 :=
  lossTail (F := Ideal) (near1Arr x0 x1) (near2Arr x0 x1)

end Cert.Chamfer

end
-- ==== Proof.Arrays.lean ====
/-
  The two output arrays after the run. Each point writes back, to the first output, its tile's nearest-ground-truth
  distances; a batch's last point writes back, to the second, the batch's nearest-predicted distances (the lane
  accumulator folded over its lanes). The blocks written back tile each `[8, 1, 4096]` array, so each array is one
  function of the two clouds; the host operations after the kernel drop the unit axis and take the loss's tail.
-/
import proofs.«144523_j78958678770154_2_alg».proof.Proof.Carry
import proofs.«144523_j78958678770154_2_alg».proof.Proof.Tail
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.Chamfer.Arrays

open Cert.KernelIdeal Cert.KernelIdeal.Gen Cert.Chamfer.Blocks Cert.Chamfer.Pieces Cert.Chamfer.Carry Cert.Chamfer.Mins

variable (m : (ℓ : Loc nD τ sig) → Buf (Elt Ideal) ℓ)

/-- The first output's block at a point: for each predicted point of the tile its nearest ground-truth distance. -/
theorem out2_of (c : Dev nD) (t : Fin cfg0.N) (gp : Vec Ideal S4096x8 .f32)
    (hgp : ∀ (mm : Fin 4096) (k : Fin 8), gp (ix2 mm k) = gpRow (gPt (Gm m c) (bOf t.val t.isLt) mm) k) (j : Fin 1024) :
    k0_pay6 (F := Ideal) (iblk m c 0 t) gp (ix3 0 0 j)
      = near1K (Pm m c) (Gm m c) (bOf t.val t.isLt) ⟨1024 * (t.val % 4) + j.val, by have := j.isLt; omega⟩ := by
  refine (pay6_apply (iblk m c 0 t) gp j).trans ?_
  unfold near1K
  congr 1
  funext mm
  refine (tile_entry (Pm m c) (Gm m c) (bOf t.val t.isLt) (t.val % 4) (by omega) (iblk m c 0 t) gp (hx0_at m c t) hgp mm j).trans ?_
  unfold tileOf
  rw [dif_pos (by omega)]

theorem out2_apply (c : Dev nD) (t : Fin cfg0.N) (j : Fin 1024) :
    (outsAt0 m c t.val t.isLt).1 (ix3 0 0 j)
      = near1K (Pm m c) (Gm m c) (bOf t.val t.isLt) ⟨1024 * (t.val % 4) + j.val, by have := j.isLt; omega⟩ := by
  by_cases h0 : t.val % 4 = 0
  · have h1 : ¬t.val % 4 = 3 := by omega
    rw [outsAt0_A m c t h0 h1]
    dsimp only
    rw [out_A_2]
    have hi := (inv_first m c t h0).1
    unfold Carried at hi
    rw [outsAt0_A m c t h0 h1] at hi
    dsimp only at hi
    rw [sout_A_0] at hi
    exact out2_of m c t _ hi j
  · have hp : t.val - 1 < cfg0.N := by have := t.isLt; omega
    have hgp := (inv_next m c t h0 hp (inv_all m c (t.val - 1) hp)).1
    by_cases h1 : t.val % 4 = 3
    · rw [outsAt0_C m c t h0 h1]
      dsimp only
      rw [out_C_2]
      exact out2_of m c t _ hgp j
    · rw [outsAt0_B m c t h0 h1]
      dsimp only
      rw [out_B_2]
      exact out2_of m c t _ hgp j

/-- The second output's block at a batch's last tile: for each ground-truth point its nearest predicted distance, staged. -/
theorem out3_apply (c : Dev nD) (t : Fin cfg0.N) (h1 : t.val % 4 = 3) (mm : Fin 4096) :
    (outsAt0 m c t.val t.isLt).2.1 (ix3 0 0 mm) = near2K (Pm m c) (Gm m c) (bOf t.val t.isLt) mm := by
  have h0 : ¬t.val % 4 = 0 := by omega
  have hp : t.val - 1 < cfg0.N := by have := t.isLt; omega
  have hacc := (inv_next m c t h0 hp (inv_all m c (t.val - 1) hp)).2
  rw [outsAt0_C m c t h0 h1]
  dsimp only
  rw [out_C_3]
  refine (pay2_apply _ mm).trans ?_
  unfold near2K
  congr 1
  funext l
  rw [hacc mm l, h1]

/-- The two output arrays `[8, 1, 4096]` the run leaves. -/
def A2 (c : Dev nD) : Vec Ideal S8x1x4096 .f32 := fun i => near1K (Pm m c) (Gm m c) (i 0) (i 2)
def A3 (c : Dev nD) : Vec Ideal S8x1x4096 .f32 := fun i => near2K (Pm m c) (Gm m c) (i 0) (i 2)

/-- What a point writes back to the first output is its block of `A2`. -/
theorem flushed2_eq (c : Dev nD) (t : Fin cfg0.N) :
    (dats m 0 c).flushed 2 t = ((cfg0.win 2).blk t).view.read (Elt Ideal) (A2 m c) := by
  obtain ⟨-, -, -, -, -, -, e0, e1, e2, -⟩ := idx_facts t
  show (cfg0.win 2).cut (grid0.coords t) ((dats m 0 c).after 2 t) = _
  rw [after0_2]
  funext (y : S1x1x1024.Idx)
  obtain ⟨u, v, j, rfl⟩ : ∃ (u : Fin 1) (v : Fin 1) (j : Fin 1024), y = ix3 u v j := ⟨y 0, y 1, y 2, eq_ix3 y⟩
  obtain rfl : u = 0 := Subsingleton.elim _ _
  obtain rfl : v = 0 := Subsingleton.elim _ _
  rw [View.read_apply]
  show (outsAt0 m c t.val t.isLt).1 (ix3 0 0 j) = A2 m c (((cfg0.win 2).blk t).view.emb (ix3 0 0 j))
  rw [out2_apply]
  unfold A2
  congr 1
  · apply Fin.ext
    show t.val / 4 = win0_2.index t (0 : Fin 3) * 1 + 1 * 0
    omega
  · apply Fin.ext
    show 1024 * (t.val % 4) + j.val = win0_2.index t (2 : Fin 3) * 1024 + 1 * j.val
    omega

/-- What a batch's last point writes back to the second output is its block of `A3`. -/
theorem flushed3_eq (c : Dev nD) (t : Fin cfg0.N) (h1 : t.val % 4 = 3) :
    (dats m 0 c).flushed 3 t = ((cfg0.win 3).blk t).view.read (Elt Ideal) (A3 m c) := by
  obtain ⟨-, -, -, -, -, -, -, -, -, e0, e1, e2⟩ := idx_facts t
  show (cfg0.win 3).cut (grid0.coords t) ((dats m 0 c).after 3 t) = _
  rw [after0_3]
  funext (y : S1x1x4096.Idx)
  obtain ⟨u, v, mm, rfl⟩ : ∃ (u : Fin 1) (v : Fin 1) (mm : Fin 4096), y = ix3 u v mm := ⟨y 0, y 1, y 2, eq_ix3 y⟩
  obtain rfl : u = 0 := Subsingleton.elim _ _
  obtain rfl : v = 0 := Subsingleton.elim _ _
  rw [View.read_apply]
  show (outsAt0 m c t.val t.isLt).2.1 (ix3 0 0 mm) = A3 m c (((cfg0.win 3).blk t).view.emb (ix3 0 0 mm))
  rw [out3_apply m c t h1]
  unfold A3
  congr 1
  · apply Fin.ext
    show t.val / 4 = win0_3.index t (0 : Fin 3) * 1 + 1 * 0
    omega
  · apply Fin.ext
    show mm.val = win0_3.index t (2 : Fin 3) * 4096 + 1 * mm.val
    omega

/-- An index of the first output is in point `t`'s block iff each coordinate is in the block's range. -/
theorem mem_blk2 (t : Fin cfg0.N) (i : S8x1x4096.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v0_0).slice (win0_2.rect t)).set ↔ _
  rw [View.set_slice_whole, Rect.mem_set_unit]
  exact Iff.rfl

theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Entry `(b, 0, n)` of the first output lies in the block of tile `n / 1024` of batch `b`. -/
theorem cover2 (i : S8x1x4096.Idx) : ∃ t : Fin cfg0.N, (cfg0.win 2).flush t = true ∧ i ∈ ((cfg0.win 2).blk t).view.set := by
  have hN : cfg0.N = 32 := N_0
  have h0 : (i 0).val < 8 := (i 0).isLt
  have h1 : (i 1).val < 1 := (i 1).isLt
  have h2 : (i 2).val < 4096 := (i 2).isLt
  refine ⟨⟨4 * (i 0).val + (i 2).val / 1024, by omega⟩, flush0_2 _, ?_⟩
  rw [mem_blk2]
  obtain ⟨-, -, -, -, -, -, e0, e1, e2, -⟩ := idx_facts ⟨4 * (i 0).val + (i 2).val / 1024, by omega⟩
  intro a
  match a with
  | ⟨0, _⟩ => show win0_2.index _ (0 : Fin 3) * 1 ≤ (i 0).val ∧ (i 0).val < win0_2.index _ (0 : Fin 3) * 1 + 1; dsimp only at e0; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 1024 ≤ (i 2).val ∧ (i 2).val < win0_2.index _ (2 : Fin 3) * 1024 + 1024; dsimp only at e2; omega

/-- Entry `(b, 0, m)` of the second output lies in the block batch `b`'s last tile writes back. -/
theorem cover3 (i : S8x1x4096.Idx) : ∃ t : Fin cfg0.N, (cfg0.win 3).flush t = true ∧ i ∈ ((cfg0.win 3).blk t).view.set := by
  have hN : cfg0.N = 32 := N_0
  have h0 : (i 0).val < 8 := (i 0).isLt
  have h1 : (i 1).val < 1 := (i 1).isLt
  have h2 : (i 2).val < 4096 := (i 2).isLt
  refine ⟨⟨4 * (i 0).val + 3, by omega⟩, (flush0_3 _).mpr (by show (4 * (i 0).val + 3) % 4 = 3; omega), ?_⟩
  rw [mem_blk3]
  obtain ⟨-, -, -, -, -, -, -, -, -, e0, e1, e2⟩ := idx_facts ⟨4 * (i 0).val + 3, by omega⟩
  intro a
  match a with
  | ⟨0, _⟩ => show win0_3.index _ (0 : Fin 3) * 1 ≤ (i 0).val ∧ (i 0).val < win0_3.index _ (0 : Fin 3) * 1 + 1; dsimp only at e0; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 4096 ≤ (i 2).val ∧ (i 2).val < win0_3.index _ (2 : Fin 3) * 4096 + 4096; omega

/-- The two output arrays after the run. -/
theorem final2 (c : Dev nD) : (dats m 0 c).arrAt 2 cfg0.N = A2 m c :=
  (dats m 0 c).arrAt_eq_of_cover 2 (A2 m c) (fun t _ => flushed2_eq m c t) cover2
theorem final3 (c : Dev nD) : (dats m 0 c).arrAt 3 cfg0.N = A3 m c :=
  (dats m 0 c).arrAt_eq_of_cover 3 (A3 m c) (fun t hf => flushed3_eq m c t ((flush0_3 t).mp hf)) cover3

/-- Dropping the middle unit axis of an `[8, 1, 4096]` array. -/
theorem cast_mid (x : Vec Ideal S8x1x4096 .f32) (i : S8x4096.Idx) :
    shapeCast S8x4096 x shapeCasts_S8x1x4096_S8x4096 i = x (ix3 (i 0) 0 (i 1)) :=
  shapeCast_apply x shapeCasts_S8x1x4096_S8x4096 i (ix3 (i 0) 0 (i 1)) (by
    rw [Shape.rowMajor_val_two, Shape.rowMajor_val_three]
    show ((i 0).val * 1 + 0) * 4096 + (i 1).val = (i 0).val * 4096 + (i 1).val
    omega)

/-- The result of the whole program: the loss's tail of the two output arrays with their unit axis dropped. -/
theorem tail_eq (c : Dev nD) :
    Pipeline.afterTail₀ cfgs (dats m) 0 (V0 m) [hostOps1] c main_v11
      = lossTail (F := Ideal) (fun i => A2 m c (ix3 (i 0) 0 (i 1))) (fun i => A3 m c (ix3 (i 0) 0 (i 1))) := by
  have e2 : Pipeline.withArrays (cfgs 0).spec c (V0 m c) (fun w => (dats m 0 c).arrAt w (cfgs 0).N) (Proc.devRef .tc main_v0_0) = A2 m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1) = A3 m c :=
    (Pipeline.withArrays_arr spec0 launch0.win.arr_inj c _ _ 3).trans (final3 m c)
  unfold Pipeline.afterTail₀
  show StableHlo.after hostOps1 _ (Proc.devRef .tc main_v11) = _
  after_results
  rw [e2, e3]
  have d1 : (fun i : S8x4096.Idx => shapeCast S8x4096 (A2 m c) shapeCasts_S8x1x4096_S8x4096 i) = fun i => A2 m c (ix3 (i 0) 0 (i 1)) :=
    funext fun i => cast_mid (A2 m c) i
  have d2 : (fun i : S8x4096.Idx => shapeCast S8x4096 (A3 m c) shapeCasts_S8x1x4096_S8x4096 i) = fun i => A3 m c (ix3 (i 0) 0 (i 1)) :=
    funext fun i => cast_mid (A3 m c) i
  unfold lossTail
  rw [← d1, ← d2]
  rfl

end Cert.Chamfer.Arrays

end
-- ==== Proof.DistAlgebra.lean ====
/-
  The squared distance of two points with finite coordinates, spelt as one inner product of two augmented
  8-vectors, equals the expanded square |p|² + |g|² − 2⟨p, g⟩.

  First the float words of the constants are evaluated: the words of 2, −2 and 1 denote those reals, and the
  word of +∞ denotes ⊤. Then both spellings are expanded coordinate by coordinate. On finite coordinates every
  product and sum is the coercion of the corresponding real product and sum, so the whole identity is pulled
  under one coercion, where it is an identity of commutative rings:
    ∑ gᵢ·(−2·pᵢ) + |g|²·1 + 1·|p|² = (|p|² + |g|²) − 2·∑ pᵢ·gᵢ.
-/
import Mathlib
import Idealize.ShloMosaic.PureOps.Ideal
import proofs.«144523_j78958678770154_2_alg».proof.Proof.Spec

noncomputable section

namespace Cert.Chamfer.DistAlgebra

open Idealize.ShloMosaic

/-! ## The constants -/

/-- The word `0x40000000` denotes the real `2`. -/
theorem cTwo_eq : cTwo = ((2 : ℝ) : EReal) := by
  simp [cTwo, Ideal.ofBits, Ideal.ieee, -EReal.coe_mul]
  norm_num

/-- The word `0xC0000000` denotes the real `−2`. -/
theorem cNegTwo_eq : cNegTwo = ((-2 : ℝ) : EReal) := by
  simp [cNegTwo, Ideal.ofBits, Ideal.ieee, -EReal.coe_mul]
  norm_num

/-- The word `0x3F800000` denotes the real `1`. -/
theorem cOne_eq : cOne = ((1 : ℝ) : EReal) := by
  simp [cOne, Ideal.ofBits, Ideal.ieee, -EReal.coe_mul]
  norm_num

/-- The word `0x7F800000` (all-ones exponent, zero significand, sign clear) denotes `⊤`. -/
theorem top_word : Ideal.ofBits .f32 0x7F800000#32 = (⊤ : EReal) := by
  simp [Ideal.ofBits, Ideal.ieee]

/-! ## The augmented vectors, entry by entry -/

theorem gpRow_0 (g : Fin 3 → EReal) : gpRow g 0 = g 0 := rfl
theorem gpRow_1 (g : Fin 3 → EReal) : gpRow g 1 = g 1 := rfl
theorem gpRow_2 (g : Fin 3 → EReal) : gpRow g 2 = g 2 := rfl
theorem gpRow_3 (g : Fin 3 → EReal) : gpRow g 3 = ∑ d : Fin 3, g d * g d := rfl
theorem gpRow_4 (g : Fin 3 → EReal) : gpRow g 4 = cOne := rfl
theorem gpRow_5 (g : Fin 3 → EReal) : gpRow g 5 = 0 := rfl
theorem gpRow_6 (g : Fin 3 → EReal) : gpRow g 6 = 0 := rfl
theorem gpRow_7 (g : Fin 3 → EReal) : gpRow g 7 = 0 := rfl

theorem ppCol_0 (p : Fin 3 → EReal) : ppCol p 0 = cNegTwo * p 0 := rfl
theorem ppCol_1 (p : Fin 3 → EReal) : ppCol p 1 = cNegTwo * p 1 := rfl
theorem ppCol_2 (p : Fin 3 → EReal) : ppCol p 2 = cNegTwo * p 2 := rfl
theorem ppCol_3 (p : Fin 3 → EReal) : ppCol p 3 = cOne := rfl
theorem ppCol_4 (p : Fin 3 → EReal) : ppCol p 4 = ∑ d : Fin 3, p d * p d := rfl
theorem ppCol_5 (p : Fin 3 → EReal) : ppCol p 5 = 0 := rfl
theorem ppCol_6 (p : Fin 3 → EReal) : ppCol p 6 = 0 := rfl
theorem ppCol_7 (p : Fin 3 → EReal) : ppCol p 7 = 0 := rfl

/-! ## The two spellings agree on finite coordinates -/

/-- A vector of extended reals none of which is infinite is the coercion of a vector of reals. -/
theorem exists_real (g : Fin 3 → EReal) (hg : ∀ d, g d ≠ ⊤ ∧ g d ≠ ⊥) :
    ∃ a : Fin 3 → ℝ, g = fun d => ((a d : ℝ) : EReal) :=
  ⟨fun d => (g d).toReal, funext fun d => (EReal.coe_toReal (hg d).1 (hg d).2).symm⟩

/-- On finite coordinates the inner product of the augmented vectors is the expanded square. The three trailing
    entries contribute `0 · 0 = 0`; what is left is an identity of real polynomials in the six coordinates. -/
theorem dotK_eq_dotR (g p : Fin 3 → EReal) (hg : ∀ d, g d ≠ ⊤ ∧ g d ≠ ⊥) (hp : ∀ d, p d ≠ ⊤ ∧ p d ≠ ⊥) :
    dotK g p = dotR p g := by
  obtain ⟨a, rfl⟩ := exists_real g hg
  obtain ⟨b, rfl⟩ := exists_real p hp
  unfold dotK dotR
  rw [Fin.sum_univ_eight]
  simp only [gpRow_0, gpRow_1, gpRow_2, gpRow_3, gpRow_4, gpRow_5, gpRow_6, gpRow_7,
    ppCol_0, ppCol_1, ppCol_2, ppCol_3, ppCol_4, ppCol_5, ppCol_6, ppCol_7,
    Fin.sum_univ_three, cTwo_eq, cNegTwo_eq, cOne_eq, mul_zero, add_zero,
    ← EReal.coe_mul, ← EReal.coe_add, ← EReal.coe_sub]
  congr 1
  ring

end Cert.Chamfer.DistAlgebra

end
-- ==== Proof.StagedMin.lean ====
/-
  The minimum of 4096 extended reals taken in stages is the minimum.

  The stages: the 4096 entries are cut into four tiles of 1024; a tile is folded to 128 lanes, lane `l` holding
  the minimum of the eight entries `128·c + l` (`c < 8`) of the tile; the lanes are accumulated tile after tile
  starting from `⊤`; at the end the minimum over the 128 lanes is taken. Entry `n` of the 4096 sits in tile
  `n / 1024`, chunk `(n % 1024) / 128`, lane `n % 128`, since `n = 1024·(n / 1024) + 128·((n % 1024) / 128) + n % 128`.

  Both inequalities are elementary lattice facts: every value the staged form combines is `⊤` or an entry, hence
  bounded below by the overall infimum; and each entry bounds from above the lane of the tile it sits in, hence the
  accumulator at that lane, hence the infimum over the lanes.
-/
import Mathlib
import Idealize.ShloMosaic.PureOps.Ideal
import proofs.«144523_j78958678770154_2_alg».proof.Proof.Spec

noncomputable section

namespace Cert.Chamfer.StagedMin

/-! ## One tile -/

/-- Inside the four tiles, entry `j` of tile `k` is entry `1024·k + j` of the whole. -/
theorem tileOf_lt (f : Fin 4096 → EReal) (k : ℕ) (hk : k < 4) (j : Fin 1024) :
    tileOf f k j = f ⟨1024 * k + j.val, by omega⟩ := dif_pos hk

/-- A lower bound of all entries of a tile is a lower bound of each of its lanes. -/
theorem le_tileMin (x : EReal) (h : Fin 1024 → EReal) (hx : ∀ j, x ≤ h j) (l : Fin 128) :
    x ≤ tileMin h l := by
  unfold tileMin
  simp only [le_min_iff, hx, and_self]

/-- Lane `l` of a folded tile is at most the entry of each chunk at that lane. -/
theorem tileMin_le (h : Fin 1024 → EReal) (c : Fin 8) (l : Fin 128) :
    tileMin h l ≤ h (jIdx c l) := by
  unfold tileMin
  fin_cases c <;> simp [min_le_iff]

/-! ## The accumulator -/

/-- The accumulator after tiles `0 … K` is at most the folded tile `k`, for every `k ≤ K`. -/
theorem accum_le (f : Fin 4096 → EReal) (k K : ℕ) (hk : k ≤ K) (l : Fin 128) :
    accum f K l ≤ tileMin (tileOf f k) l := by
  induction K with
  | zero =>
    obtain rfl : k = 0 := Nat.le_zero.mp hk
    exact min_le_right _ _
  | succ K ih =>
    rcases Nat.eq_or_lt_of_le hk with rfl | hlt
    · exact min_le_right _ _
    · exact (min_le_left _ _).trans (ih (Nat.lt_succ_iff.mp hlt))

/-- The overall infimum is a lower bound of the accumulator at every stage and lane. -/
theorem inf_le_accum (f : Fin 4096 → EReal) (K : ℕ) (l : Fin 128) :
    Finset.univ.inf f ≤ accum f K l := by
  have hT : ∀ k, Finset.univ.inf f ≤ tileMin (tileOf f k) l := fun k =>
    le_tileMin _ _ (fun j => by
      unfold tileOf
      split
      · exact Finset.inf_le (Finset.mem_univ _)
      · exact le_top) l
  induction K with
  | zero => exact le_min le_top (hT 0)
  | succ K ih => exact le_min ih (hT (K + 1))

/-- The accumulator after all four tiles, at the lane of entry `n`, is at most entry `n`. -/
theorem accum_le_entry (f : Fin 4096 → EReal) (n : Fin 4096) :
    accum f 3 ⟨n.val % 128, Nat.mod_lt _ (by norm_num)⟩ ≤ f n := by
  have hk : n.val / 1024 < 4 := by omega
  have hc : (n.val % 1024) / 128 < 8 := by omega
  refine (accum_le f (n.val / 1024) 3 (by omega) _).trans ?_
  refine (tileMin_le _ ⟨(n.val % 1024) / 128, hc⟩ _).trans ?_
  rw [tileOf_lt f _ hk]
  refine le_of_eq (congrArg f (Fin.ext ?_))
  show 1024 * (n.val / 1024) + (128 * ((n.val % 1024) / 128) + n.val % 128) = n.val
  omega

/-! ## The staged minimum is the minimum -/

theorem inf_accum (f : Fin 4096 → EReal) :
    (Finset.univ.inf fun l : Fin 128 => accum f 3 l) = Finset.univ.inf f := by
  apply le_antisymm
  · refine Finset.le_inf fun n _ => ?_
    exact (Finset.inf_le (f := fun l : Fin 128 => accum f 3 l) (Finset.mem_univ _)).trans (accum_le_entry f n)
  · exact Finset.le_inf fun l _ => inf_le_accum f 3 l

end Cert.Chamfer.StagedMin

end
-- ==== Proof.NearEq.lean ====
/-
  The nearest-point distances in the inner-product spelling equal those in the expanded-square spelling, for clouds
  with finite coordinates.

  Point by point the two spellings of the squared distance agree (distributivity of the reals), so the infima over
  the ground-truth points agree; and the staged minimum over the predicted points is the plain infimum, to which
  the same pointwise agreement applies.
-/
import Mathlib
import Idealize.ShloMosaic.PureOps.Ideal
import proofs.«144523_j78958678770154_2_alg».proof.Proof.Spec
import proofs.«144523_j78958678770154_2_alg».proof.Proof.DistAlgebra
import proofs.«144523_j78958678770154_2_alg».proof.Proof.StagedMin

noncomputable section

namespace Cert.Chamfer.NearEq

/-- Pointwise: the two spellings of the squared distance of predicted point `n` and ground-truth point `m`. -/
theorem sqdK_eq_sqdR (P : Fin 8 → Fin 3 → Fin 4096 → EReal) (G : Fin 8 → Fin 4096 → Fin 3 → EReal)
    (hP : ∀ b d n, P b d n ≠ ⊤ ∧ P b d n ≠ ⊥) (hG : ∀ b m d, G b m d ≠ ⊤ ∧ G b m d ≠ ⊥)
    (b : Fin 8) (m n : Fin 4096) : sqdK P G b m n = sqdR P G b n m :=
  DistAlgebra.dotK_eq_dotR (gPt G b m) (pPt P b n) (fun d => hG b m d) (fun d => hP b d n)

/-- The distance from a predicted point to its nearest ground-truth point, in both spellings. -/
theorem near1K_eq_near1 (P : Fin 8 → Fin 3 → Fin 4096 → EReal) (G : Fin 8 → Fin 4096 → Fin 3 → EReal)
    (hP : ∀ b d n, P b d n ≠ ⊤ ∧ P b d n ≠ ⊥) (hG : ∀ b m d, G b m d ≠ ⊤ ∧ G b m d ≠ ⊥)
    (b : Fin 8) (n : Fin 4096) : near1K P G b n = near1 P G b n := by
  unfold near1K near1
  exact congrArg (Finset.univ.inf) (funext fun m => sqdK_eq_sqdR P G hP hG b m n)

/-- The distance from a ground-truth point to its nearest predicted point: staged inner-product spelling against
    the plain expanded-square spelling. -/
theorem near2K_eq_near2 (P : Fin 8 → Fin 3 → Fin 4096 → EReal) (G : Fin 8 → Fin 4096 → Fin 3 → EReal)
    (hP : ∀ b d n, P b d n ≠ ⊤ ∧ P b d n ≠ ⊥) (hG : ∀ b m d, G b m d ≠ ⊤ ∧ G b m d ≠ ⊥)
    (b : Fin 8) (m : Fin 4096) : near2K P G b m = near2 P G b m := by
  unfold near2K near2
  rw [StagedMin.inf_accum]
  exact congrArg (Finset.univ.inf) (funext fun n => sqdK_eq_sqdR P G hP hG b m n)

end Cert.Chamfer.NearEq

end
-- ==== Proof.KernelValue.lean ====
/-
  The idealized kernel's value: its run ends with the result at the loss's tail of the two staged nearest-distance
  arrays, the clouds unchanged; and on finite clouds that is the chamfer loss.
-/
import proofs.«144523_j78958678770154_2_alg».proof.Proof.Arrays
import proofs.«144523_j78958678770154_2_alg».proof.Proof.NearEq

set_option maxRecDepth 16384

noncomputable section

open Idealize.ShloMosaic Idealize.ShloMosaic.TcCoe Idealize.SL.Sem Idealize.ShloMosaic.ValueIdx
open Idealize.ShloMosaic.Pipeline (Dat)

namespace Cert.Chamfer.KernelValue

open Cert.KernelIdeal Cert.KernelIdeal.Gen Cert.Chamfer.Blocks Cert.Chamfer.Arrays

variable (m : (ℓ : Loc nD τ sig) → Buf (Elt Ideal) ℓ) (ρ : Dev nD → PrngReg)

/-- The idealized kernel's run, read: its result is the loss's tail of the two staged nearest-distance arrays, and
    the two clouds are unchanged. -/
theorem run : θ_run defs (onTc (τ := τ) (main (F := Ideal))) ⟨m, fun _ => 0, ρ⟩ fun r => ∀ c : Dev nD,
      r.2.mem ((c.tc : Thread nD τ).loc main_v11)
        = lossTail (F := Ideal) (fun i => A2 m c (ix3 (i 0) 0 (i 1))) (fun i => A3 m c (ix3 (i 0) 0 (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v11 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- On finite clouds the staged inner-product form is the loss. -/
theorem tail_loss (c : Dev nD)
    (hP : ∀ b d n, pOf (m ((c.tc : Thread nD τ).loc main_arg0)) b d n ≠ ⊤ ∧ pOf (m ((c.tc : Thread nD τ).loc main_arg0)) b d n ≠ ⊥)
    (hG : ∀ b mm d, gOf (m ((c.tc : Thread nD τ).loc main_arg1)) b mm d ≠ ⊤ ∧ gOf (m ((c.tc : Thread nD τ).loc main_arg1)) b mm d ≠ ⊥) :
    lossTail (F := Ideal) (fun i => A2 m c (ix3 (i 0) 0 (i 1))) (fun i => A3 m c (ix3 (i 0) 0 (i 1)))
      = loss (m ((c.tc : Thread nD τ).loc main_arg0)) (m ((c.tc : Thread nD τ).loc main_arg1)) := by
  unfold loss
  congr 1
  · funext i
    exact NearEq.near1K_eq_near1 _ _ hP hG (i 0) (i 1)
  · funext i
    exact NearEq.near2K_eq_near2 _ _ hP hG (i 0) (i 1)

end Cert.Chamfer.KernelValue

end
-- ==== Proof.RefDist.lean ====
/-
  The reference program's distance entry.

  The reference forms, for predicted point `n` and ground-truth point `m` of batch `b`, the number
  `(|p|² + |g|²) − 2·⟨p, g⟩`: the two squared norms are sums over the three coordinates started from the zero word, the
  inner product is a contraction over the three coordinates, and the factor 2 is a float word that is never evaluated.
  Read at the index `(b, n, m)` this is, term for term, the expanded square `sqdR` of the two clouds read by coordinates
  (the predicted cloud is stored coordinate-major, so the reference's transpose turns `(b, n, d)` into `(b, d, n)`).
-/
import proofs.«144523_j78958678770154_2_alg».proof.Proof.Gen.ReferenceIdeal.Read
import proofs.«144523_j78958678770154_2_alg».proof.Proof.Spec

noncomputable section

open scoped BigOperators

namespace Cert.Chamfer.Reference

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The predicted point's coordinate `k`, reached through the squared-norm sum: `(b, n, k)` transposed is `(b, k, n)`. -/
theorem idx_pnorm (b : Fin 8) (n m : Fin 4096) (k : Fin 3) :
    idx_main_v0 (idx_main_v2 (idx_main_v6 (idx_main_v8 (ix3 b n m))) k) = ix3 b k n :=
  funext fun a => Fin.ext (by match a with | ⟨0, _⟩ => rfl | ⟨1, _⟩ => rfl | ⟨2, _⟩ => rfl)

/-- The ground-truth point's coordinate `k`, reached through the squared-norm sum. -/
theorem idx_gnorm (b : Fin 8) (n m : Fin 4096) (k : Fin 3) :
    idx_main_v4 (idx_main_v7 (idx_main_v9 (ix3 b n m))) k = ix3 b m k :=
  funext fun a => Fin.ext (by match a with | ⟨0, _⟩ => rfl | ⟨1, _⟩ => rfl | ⟨2, _⟩ => rfl)

/-- The predicted point's coordinate `k`, reached through the contraction's left operand. -/
theorem idx_lhs (b : Fin 8) (n m : Fin 4096) (k : Fin 3) :
    idx_main_v0 (lidx_main_v5 (ix3 b n m) k) = ix3 b k n :=
  funext fun a => Fin.ext (by match a with | ⟨0, _⟩ => rfl | ⟨1, _⟩ => rfl | ⟨2, _⟩ => rfl)

/-- The ground-truth point's coordinate `k`, reached through the contraction's right operand. -/
theorem idx_rhs (b : Fin 8) (n m : Fin 4096) (k : Fin 3) :
    ridx_main_v5 (ix3 b n m) k = ix3 b m k :=
  funext fun a => Fin.ext (by match a with | ⟨0, _⟩ => rfl | ⟨1, _⟩ => rfl | ⟨2, _⟩ => rfl)

/-- The reference's distance array at `(b, n, m)` is the expanded square of predicted point `n` and ground-truth point `m`. -/
theorem dist_apply (x0 : (⟨S8x3x4096, .f32⟩ : BufTy).Contents (Elt Ideal)) (x1 : (⟨S8x4096x3, .f32⟩ : BufTy).Contents (Elt Ideal))
    (b : Fin 8) (n m : Fin 4096) :
    val_main_v13 (F := Ideal) x0 x1 (ix3 b n m) = sqdR (pOf x0) (gOf x1) b n m := by
  rw [val_main_v13_apply, val_main_v10_apply, val_main_v12_apply, val_main_v8_apply, val_main_v9_apply,
    val_main_v6_apply, val_main_v7_apply, val_main_v11_apply, val_main_v2_apply, val_main_v4_apply,
    val_main_v5_apply, val_main_cst_apply, val_main_cst_0_apply, val_main_cst_1_apply]
  simp only [val_main_v1_apply, val_main_v3_apply, val_main_v0_apply, idx_pnorm, idx_gnorm, idx_lhs, idx_rhs,
    Ideal.mulf_def, Ideal.addf_def, Ideal.subf_def, Ideal.ofBits_def, Ideal.ofBits_zero_f32, zero_add]
  rfl

end Cert.Chamfer.Reference

end
-- ==== Proof.RefNear.lean ====
/-
  The reference program's two arrays of nearest-point distances.

  The reference takes the minimum of its distance array over the ground-truth axis (the last one) and, separately, over the
  predicted axis (the middle one), each started from the float word of `+∞`. A minimum over one axis is the fold of `min`
  over that axis's coordinates with the other two held fixed; started from `⊤` that fold is the infimum over the
  coordinates. With the distance entry read as the expanded square, the two arrays are `near1Arr` and `near2Arr`.
-/
import proofs.«144523_j78958678770154_2_alg».proof.Proof.RefDist

noncomputable section

open scoped BigOperators

namespace Cert.Chamfer.Reference

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The float word `0x7F800000` is `+∞`, the top of the extended reals. -/
theorem inf_word_eq_top : Ideal.ofBits .f32 0x7F800000#32 = (⊤ : EReal) := by
  simp [Ideal.ofBits, Ideal.ieee]

/-- A fold of `min` started from `⊤` is the infimum. -/
theorem fold_min_top {ι : Type} (s : Finset ι) (f : ι → EReal) : s.fold min ⊤ f = s.inf f := rfl

/-- The distance array's index over `(b, n)` with ground-truth coordinate `m` inserted on the last axis. -/
theorem lift_last (h : Shape.Reduces S8x4096x4096 [2] S8x4096) (b : Fin 8) (n m : Fin 4096) :
    h.lift (ix2 b n) m = ix3 b n m :=
  funext fun a => Fin.ext (by match a with | ⟨0, _⟩ => rfl | ⟨1, _⟩ => rfl | ⟨2, _⟩ => rfl)

/-- The distance array's index over `(b, m)` with predicted coordinate `n` inserted on the middle axis. -/
theorem lift_mid (h : Shape.Reduces S8x4096x4096 [1] S8x4096) (b : Fin 8) (m n : Fin 4096) :
    h.lift (ix2 b m) n = ix3 b n m :=
  funext fun a => Fin.ext (by match a with | ⟨0, _⟩ => rfl | ⟨1, _⟩ => rfl | ⟨2, _⟩ => rfl)

/-- The reference's minimum over the ground-truth points is the distance from each predicted point to its nearest ground-truth point. -/
theorem near1_eq (x0 : (⟨S8x3x4096, .f32⟩ : BufTy).Contents (Elt Ideal)) (x1 : (⟨S8x4096x3, .f32⟩ : BufTy).Contents (Elt Ideal)) :
    val_main_v14 (F := Ideal) x0 x1 = near1Arr x0 x1 := by
  funext i
  obtain ⟨b, n, rfl⟩ : ∃ (b : Fin 8) (n : Fin 4096), i = ix2 b n := ⟨i 0, i 1, eq_ix2 i⟩
  have h : Shape.Reduces S8x4096x4096 [2] S8x4096 := by decide
  unfold val_main_v14
  rw [Host.reduce_eq_fold_single FloatOps.minimumf _ _ reducesTo_S8x4096x4096_S8x4096_d2 h h_S_ (ix2 b n)]
  rw [val_main_cst_2_apply, Ideal.ofBits_def, inf_word_eq_top]
  have e : (val_main_v13 (F := Ideal) x0 x1 ∘ h.lift (ix2 b n)) = fun m : Fin 4096 => sqdR (pOf x0) (gOf x1) b n m :=
    funext fun (m : Fin 4096) => by
      show val_main_v13 (F := Ideal) x0 x1 (h.lift (ix2 b n) m) = _
      rw [lift_last h b n m]
      exact dist_apply x0 x1 b n m
  rw [e]
  exact fold_min_top _ _

/-- The reference's minimum over the predicted points is the distance from each ground-truth point to its nearest predicted point. -/
theorem near2_eq (x0 : (⟨S8x3x4096, .f32⟩ : BufTy).Contents (Elt Ideal)) (x1 : (⟨S8x4096x3, .f32⟩ : BufTy).Contents (Elt Ideal)) :
    val_main_v15 (F := Ideal) x0 x1 = near2Arr x0 x1 := by
  funext i
  obtain ⟨b, m, rfl⟩ : ∃ (b : Fin 8) (m : Fin 4096), i = ix2 b m := ⟨i 0, i 1, eq_ix2 i⟩
  have h : Shape.Reduces S8x4096x4096 [1] S8x4096 := by decide
  unfold val_main_v15
  rw [Host.reduce_eq_fold_single FloatOps.minimumf _ _ reducesTo_S8x4096x4096_S8x4096_d1 h h_S_ (ix2 b m)]
  rw [val_main_cst_3_apply, Ideal.ofBits_def, inf_word_eq_top]
  have e : (val_main_v13 (F := Ideal) x0 x1 ∘ h.lift (ix2 b m)) = fun n : Fin 4096 => sqdR (pOf x0) (gOf x1) b n m :=
    funext fun (n : Fin 4096) => by
      show val_main_v13 (F := Ideal) x0 x1 (h.lift (ix2 b m) n) = _
      rw [lift_mid h b m n]
      exact dist_apply x0 x1 b n m
  rw [e]
  exact fold_min_top _ _

end Cert.Chamfer.Reference

end
-- ==== Proof.RefValue.lean ====
/-
  The reference program's value.

  After its two arrays of nearest-point distances the reference only averages: each array's rows are summed from the
  zero word and divided by the float word of 4096, the two row means are added, the eight batch values are summed from
  the zero word and divided by the float word of 8. Those are exactly the operations of `lossTail`, applied to the two
  arrays; with the arrays read as `near1Arr` and `near2Arr`, the reference's last stage is the chamfer loss `loss`.
-/
import proofs.«144523_j78958678770154_2_alg».proof.Proof.RefNear
import proofs.«144523_j78958678770154_2_alg».proof.Proof.Tail

noncomputable section

namespace Cert.Chamfer.Reference

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's stages after the two minima are the averaging tail, applied to the two arrays of minima. -/
theorem tail_eq (x0 : (⟨S8x3x4096, .f32⟩ : BufTy).Contents (Elt Ideal)) (x1 : (⟨S8x4096x3, .f32⟩ : BufTy).Contents (Elt Ideal)) :
    val_main_v24 (F := Ideal) x0 x1
      = lossTail (F := Ideal) (val_main_v14 (F := Ideal) x0 x1) (val_main_v15 (F := Ideal) x0 x1) := by
  unfold val_main_v24 val_main_v23 val_main_v22 val_main_v21 val_main_v20 val_main_v19 val_main_v18 val_main_v17 val_main_v16
    val_main_cst_4 val_main_cst_5 val_main_cst_6 val_main_cst_7 val_main_cst_8 val_main_cst_9 lossTail
  rfl

/-- The reference's last stage, as a function of the two clouds, is the chamfer loss. -/
theorem ref_eq (x0 : (⟨S8x3x4096, .f32⟩ : BufTy).Contents (Elt Ideal)) (x1 : (⟨S8x4096x3, .f32⟩ : BufTy).Contents (Elt Ideal)) :
    val_main_v24 (F := Ideal) x0 x1 = loss x0 x1 := by
  rw [tail_eq, near1_eq, near2_eq]
  rfl

end Cert.Chamfer.Reference

end
-- ==== Proof.Finite.lean ====
/-
  From the precondition to finiteness.

  The precondition compares, entry by entry, the absolute value of each cloud's coordinates with the float word of `+∞`,
  takes the conjunction of all comparisons of each cloud, and the conjunction of the two. It is all ones exactly when
  every comparison holds. Over the extended reals `|x| = max x (−x)`, and `max x (−x) < ⊤` fails at both infinities
  (`−⊥ = ⊤`), so every coordinate of both clouds is a real number: neither `⊤` nor `⊥`.
-/
import proofs.«144523_j78958678770154_2_alg».proof.Pre_finite_inputs
import proofs.«144523_j78958678770154_2_alg».proof.Proof.Spec
import Idealize.ShloMosaic.Lib.ReduceAll

noncomputable section

namespace Cert.Chamfer.Finite

open Idealize.ShloMosaic Idealize.ShloMosaic.ValueIdx

/-- The scalar shape has one index. -/
instance subsingleton_scalar_idx : Subsingleton (⟨0, ![]⟩ : Shape).Idx := ⟨fun _ _ => funext fun d => d.elim0⟩

/-- An extended real whose absolute value is below the float word of `+∞` is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : x ≠ ⊤ ∧ x ≠ ⊥ := by
  have htop : Ideal.ofBits .f32 0x7F800000#32 = (⊤ : EReal) := by simp [Ideal.ofBits, Ideal.ieee]
  have h' : Ideal.cmp .olt (max x (-x)) (Ideal.ofBits .f32 0x7F800000#32) = 1#1 := h
  rw [htop] at h'
  unfold Ideal.cmp at h'
  induction x using EReal.rec with
  | bot => simp at h'
  | coe r => exact ⟨EReal.coe_ne_top r, EReal.coe_ne_bot r⟩
  | top => simp at h'

/-- Under the precondition every entry of both clouds is a real number. -/
theorem finite_of_pre [Cert.Pre_finite_inputs.Facts]
    (x0 : (⟨3, ![8, 3, 4096]⟩ : Shape).Idx → EReal) (x1 : (⟨3, ![8, 4096, 3]⟩ : Shape).Idx → EReal)
    (h : Cert.Pre_finite_inputs.fn (F := Ideal) x0 x1 = (fun _ => 1#1)) :
    (∀ i, x0 i ≠ ⊤ ∧ x0 i ≠ ⊥) ∧ (∀ i, x1 i ≠ ⊤ ∧ x1 i ≠ ⊥) := by
  have h0 := congrFun h ix0
  dsimp only [Cert.Pre_finite_inputs.fn] at h0
  obtain ⟨ha, hb⟩ := IntOp.andi_eq_one.1 h0
  exact ⟨fun i => real_of_abs_lt_inf (x0 i) (Host.reduce_andi_all _ _ _ _ ix0 ha i),
    fun i => real_of_abs_lt_inf (x1 i) (Host.reduce_andi_all _ _ _ _ ix0 hb i)⟩

/-- The same in the clouds' coordinates. -/
theorem finite_coords [Cert.Pre_finite_inputs.Facts]
    (x0 : (⟨3, ![8, 3, 4096]⟩ : Shape).Idx → EReal) (x1 : (⟨3, ![8, 4096, 3]⟩ : Shape).Idx → EReal)
    (h : Cert.Pre_finite_inputs.fn (F := Ideal) x0 x1 = (fun _ => 1#1)) :
    (∀ b d n, pOf x0 b d n ≠ ⊤ ∧ pOf x0 b d n ≠ ⊥) ∧ (∀ b m d, gOf x1 b m d ≠ ⊤ ∧ gOf x1 b m d ≠ ⊥) :=
  ⟨fun b d n => (finite_of_pre x0 x1 h).1 (ix3 b d n), fun b m d => (finite_of_pre x0 x1 h).2 (ix3 b m d)⟩

end Cert.Chamfer.Finite

end
-- ==== Proof.lean ====
/-
  The chamfer loss of a predicted cloud `P` (8 batches × 4096 points in ℝ³, stored coordinate-major) and a
  ground-truth cloud `G` (8 × 4096 points, stored point-major), over the extended reals:
  `(∑_b (mean_n min_m d(n, m) + mean_m min_n d(n, m))) / 8` with `d` the squared distance.

  The reference expands the square, `d(n, m) = (|p_n|² + |g_m|²) − 2⟨p_n, g_m⟩`, over the whole `[8, 4096, 4096]`
  array and takes the two minima along its axes. The kernel walks a grid of 8 batches × 4 tiles of 1024 predicted
  points: at a batch's first tile it builds the augmented matrix `(g, |g|², 1, 0, 0, 0)` of the ground-truth points;
  at every tile it multiplies it with the augmented tile `(−2p, 1, |p|², 0, 0, 0)`, so that ONE matrix product gives
  the tile of squared distances, writes the column minima (nearest ground-truth point of each predicted point) and
  folds the row entries into a 128-lane accumulator started from +∞; at the last tile the accumulator's lane minimum
  is the nearest predicted point of each ground-truth point. The host then takes the same means and average.
  On finite coordinates the inner product of the augmented vectors is the expanded square (distributivity in ℝ), and
  the staged minimum over tiles, chunks and lanes is the minimum over all 4096 predicted points; so both programs end
  at `Cert.Chamfer.loss` of the two clouds. The idealization rewrote no operation, so `preserves` is trivial.
-/
import proofs.«144523_j78958678770154_2_alg».proof.Defs
import proofs.«144523_j78958678770154_2_alg».proof.Proof.Gen.Kernel
import proofs.«144523_j78958678770154_2_alg».proof.Proof.Gen.Kernel.Frame
import proofs.«144523_j78958678770154_2_alg».proof.Proof.Gen.KernelIdeal
import proofs.«144523_j78958678770154_2_alg».proof.Proof.Gen.KernelIdeal.Frame
import proofs.«144523_j78958678770154_2_alg».proof.Proof.Gen.ReferenceIdeal
import proofs.«144523_j78958678770154_2_alg».proof.Proof.Gen.ReferenceIdeal.Run
import proofs.«144523_j78958678770154_2_alg».proof.Proof.Gen.ReferenceIdeal.Read
import proofs.«144523_j78958678770154_2_alg».proof.Proof.Gen.Pre_finite_inputs
import proofs.«144523_j78958678770154_2_alg».proof.Proof.KernelValue
import proofs.«144523_j78958678770154_2_alg».proof.Proof.RefValue
import proofs.«144523_j78958678770154_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from finite clouds that agree, end with the result at the chamfer loss of the clouds. -/
theorem algebraic : Cert.algebraic_KernelIdeal_ReferenceIdeal := by
  intro m ρ m' ρ' hpre hagree
  refine ⟨fun c => Cert.Chamfer.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.Chamfer.KernelValue.run m ρ)
    obtain ⟨hP, hG⟩ := Cert.Chamfer.Finite.finite_coords _ _ (hpre c)
    exact Cert.Chamfer.KernelValue.tail_loss m c hP hG
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, Cert.Chamfer.Reference.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
